-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "neg_big" .f32 0xF149F2CA#32 ⊥
  ∧ IdealRules.named_const.Statement Cert.KernelIdeal.κ "neg_big" .f32 0xF149F2CA#32 ⊥
  ∧ IdealRules.named_const.Statement Cert.KernelIdeal.κ "neg_big_2" .f32 0xEFA18F08#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8732x4 : Shape := ⟨2, ![8732, 4]⟩
abbrev S8732 : Shape := ⟨1, ![8732]⟩
abbrev S2048x4 : Shape := ⟨2, ![2048, 4]⟩
abbrev S2048 : Shape := ⟨1, ![2048]⟩
abbrev S2048x1 : Shape := ⟨2, ![2048, 1]⟩
abbrev S1x8732 : Shape := ⟨2, ![1, 8732]⟩
abbrev S2048x8732 : Shape := ⟨2, ![2048, 8732]⟩
abbrev S_ : Shape := ⟨0, ![]⟩
abbrev S2048x2 : Shape := ⟨2, ![2048, 2]⟩
abbrev S2048x1x2 : Shape := ⟨3, ![2048, 1, 2]⟩
abbrev S8732x2 : Shape := ⟨2, ![8732, 2]⟩
abbrev S1x8732x2 : Shape := ⟨3, ![1, 8732, 2]⟩
abbrev S2048x8732x2 : Shape := ⟨3, ![2048, 8732, 2]⟩
abbrev S2048x8732x1 : Shape := ⟨3, ![2048, 8732, 1]⟩
abbrev S8732x1 : Shape := ⟨2, ![8732, 1]⟩

class Facts : Prop where
  bcast_S2048_S2048x1_0 : S2048.BroadcastsInDim S2048x1 (![0] : Fin 1 → Fin S2048x1.rank)
  bcast_S8732_S1x8732_1 : S8732.BroadcastsInDim S1x8732 (![1] : Fin 1 → Fin S1x8732.rank)
  bcast_S2048x1_S2048x8732_0_1 : S2048x1.BroadcastsInDim S2048x8732 (![0, 1] : Fin 2 → Fin S2048x8732.rank)
  bcast_S1x8732_S2048x8732_0_1 : S1x8732.BroadcastsInDim S2048x8732 (![0, 1] : Fin 2 → Fin S2048x8732.rank)
  bcast_S_S8732x4 : S_.BroadcastsInDim S8732x4 (![] : Fin 0 → Fin S8732x4.rank)
  reducesTo_S8732x4_S_d0_1 : S8732x4.ReducesTo [0, 1] S_
  h_S_ : 0 < S_.numel
  bcast_S_S8732 : S_.BroadcastsInDim S8732 (![] : Fin 0 → Fin S8732.rank)
  reducesTo_S8732_S_d0 : S8732.ReducesTo [0] S_
  bcast_S_S2048x4 : S_.BroadcastsInDim S2048x4 (![] : Fin 0 → Fin S2048x4.rank)
  reducesTo_S2048x4_S_d0_1 : S2048x4.ReducesTo [0, 1] S_
  bcast_S_S2048 : S_.BroadcastsInDim S2048 (![] : Fin 0 → Fin S2048.rank)
  reducesTo_S2048_S_d0 : S2048.ReducesTo [0] S_
  slices_S2048x4_S2048x2_0_0 : S2048x4.Slices ![0, 0] S2048x2
  bcast_S2048x2_S2048x1x2_0_2 : S2048x2.BroadcastsInDim S2048x1x2 (![0, 2] : Fin 2 → Fin S2048x1x2.rank)
  slices_S8732x4_S8732x2_0_0 : S8732x4.Slices ![0, 0] S8732x2
  bcast_S8732x2_S1x8732x2_1_2 : S8732x2.BroadcastsInDim S1x8732x2 (![1, 2] : Fin 2 → Fin S1x8732x2.rank)
  bcast_S2048x1x2_S2048x8732x2_0_1_2 : S2048x1x2.BroadcastsInDim S2048x8732x2 (![0, 1, 2] : Fin 3 → Fin S2048x8732x2.rank)
  bcast_S1x8732x2_S2048x8732x2_0_1_2 : S1x8732x2.BroadcastsInDim S2048x8732x2 (![0, 1, 2] : Fin 3 → Fin S2048x8732x2.rank)
  slices_S2048x4_S2048x2_0_2 : S2048x4.Slices ![0, 2] S2048x2
  slices_S8732x4_S8732x2_0_2 : S8732x4.Slices ![0, 2] S8732x2
  bcast_S_S2048x8732x2 : S_.BroadcastsInDim S2048x8732x2 (![] : Fin 0 → Fin S2048x8732x2.rank)
  slices_S2048x8732x2_S2048x8732x1_0_0_0 : S2048x8732x2.Slices ![0, 0, 0] S2048x8732x1
  shapeCasts_S2048x8732x1_S2048x8732 : S2048x8732x1.ShapeCasts S2048x8732
  slices_S2048x8732x2_S2048x8732x1_0_0_1 : S2048x8732x2.Slices ![0, 0, 1] S2048x8732x1
  slices_S2048x4_S2048x1_0_2 : S2048x4.Slices ![0, 2] S2048x1
  shapeCasts_S2048x1_S2048 : S2048x1.ShapeCasts S2048
  slices_S2048x4_S2048x1_0_0 : S2048x4.Slices ![0, 0] S2048x1
  slices_S2048x4_S2048x1_0_3 : S2048x4.Slices ![0, 3] S2048x1
  slices_S2048x4_S2048x1_0_1 : S2048x4.Slices ![0, 1] S2048x1
  slices_S8732x4_S8732x1_0_2 : S8732x4.Slices ![0, 2] S8732x1
  shapeCasts_S8732x1_S8732 : S8732x1.ShapeCasts S8732
  slices_S8732x4_S8732x1_0_0 : S8732x4.Slices ![0, 0] S8732x1
  slices_S8732x4_S8732x1_0_3 : S8732x4.Slices ![0, 3] S8732x1
  slices_S8732x4_S8732x1_0_1 : S8732x4.Slices ![0, 1] S8732x1
  bcast_S_S2048x8732 : S_.BroadcastsInDim S2048x8732 (![] : Fin 0 → Fin S2048x8732.rank)
  reducesTo_S2048x8732_S_d0_1 : S2048x8732.ReducesTo [0, 1] S_

variable [Facts]

def fn_part3 {F : FTy → Type} [FloatOps F] (main_arg0 : FVec F S8732x4 .f32) (main_v25 : IVec S_ 1) (main_v26 : IVec S2048x8732 1) (main_v48 : FVec F S2048x8732 .f32) (main_v59 : FVec F S2048 .f32) (main_v61 : FVec F S8732 .f32) : IVec S_ 1 :=
  let main_v62 : FVec F S8732x1 .f32 := (extractStridedSlice S8732x1 ![0, 0] · slices_S8732x4_S8732x1_0_0) main_arg0
  let main_v63 : FVec F S8732 .f32 := shapeCast S8732 main_v62 shapeCasts_S8732x1_S8732
  let main_v64 : FVec F S8732 .f32 := subf main_v61 main_v63
  let main_v65 : FVec F S8732x1 .f32 := (extractStridedSlice S8732x1 ![0, 3] · slices_S8732x4_S8732x1_0_3) main_arg0
  let main_v66 : FVec F S8732 .f32 := shapeCast S8732 main_v65 shapeCasts_S8732x1_S8732
  let main_v67 : FVec F S8732x1 .f32 := (extractStridedSlice S8732x1 ![0, 1] · slices_S8732x4_S8732x1_0_1) main_arg0
  let main_v68 : FVec F S8732 .f32 := shapeCast S8732 main_v67 shapeCasts_S8732x1_S8732
  let main_v69 : FVec F S8732 .f32 := subf main_v66 main_v68
  let main_v70 : FVec F S8732 .f32 := mulf main_v64 main_v69
  let main_v71 : FVec F S2048x1 .f32 := broadcastInDim S2048x1 ![0] bcast_S2048_S2048x1_0 main_v59
  let main_v72 : FVec F S1x8732 .f32 := broadcastInDim S1x8732 ![1] bcast_S8732_S1x8732_1 main_v70
  let main_v73 : FVec F S2048x8732 .f32 := broadcastInDim S2048x8732 ![0, 1] bcast_S2048x1_S2048x8732_0_1 main_v71
  let main_v74 : FVec F S2048x8732 .f32 := broadcastInDim S2048x8732 ![0, 1] bcast_S1x8732_S2048x8732_0_1 main_v72
  let main_v75 : FVec F S2048x8732 .f32 := addf main_v73 main_v74
  let main_v76 : FVec F S2048x8732 .f32 := subf main_v75 main_v48
  let main_cst_8 : FVec F S_ .f32 := constant S_ .f32 0x00000000#32
  let main_v77 : FVec F S2048x8732 .f32 := broadcastInDim S2048x8732 ![] bcast_S_S2048x8732 main_cst_8
  let main_v78 : IVec S2048x8732 1 := cmpf .une main_v76 main_v77
  let main_v79 : IVec S2048x8732 1 := ori main_v26 main_v78
  let main_c_9 : IVec S_ 1 := constantI S_ 1 1#1
  let main_v80 : IVec S_ 1 := (fun x v => Host.reduce IntOp.andi x v reducesTo_S2048x8732_S_d0_1 h_S_) main_v79 main_c_9
  let main_v81 : IVec S_ 1 := andi main_v25 main_v80
  main_v81

def fn_part2 {F : FTy → Type} [FloatOps F] (main_arg0 : FVec F S8732x4 .f32) (main_arg3 : FVec F S2048x4 .f32) (main_v25 : IVec S_ 1) (main_v26 : IVec S2048x8732 1) (main_v33 : FVec F S2048x8732x2 .f32) (main_v37 : FVec F S1x8732x2 .f32) (main_v38 : FVec F S2048x8732x2 .f32) : IVec S_ 1 :=
  let main_v39 : FVec F S2048x8732x2 .f32 := broadcastInDim S2048x8732x2 ![0, 1, 2] bcast_S1x8732x2_S2048x8732x2_0_1_2 main_v37
  let main_v40 : FVec F S2048x8732x2 .f32 := minimumf main_v38 main_v39
  let main_v41 : FVec F S2048x8732x2 .f32 := subf main_v40 main_v33
  let main_cst_7 : FVec F S_ .f32 := constant S_ .f32 0x00000000#32
  let main_v42 : FVec F S2048x8732x2 .f32 := broadcastInDim S2048x8732x2 ![] bcast_S_S2048x8732x2 main_cst_7
  let main_v43 : FVec F S2048x8732x2 .f32 := maximumf main_v42 main_v41
  let main_v44 : FVec F S2048x8732x1 .f32 := (extractStridedSlice S2048x8732x1 ![0, 0, 0] · slices_S2048x8732x2_S2048x8732x1_0_0_0) main_v43
  let main_v45 : FVec F S2048x8732 .f32 := shapeCast S2048x8732 main_v44 shapeCasts_S2048x8732x1_S2048x8732
  let main_v46 : FVec F S2048x8732x1 .f32 := (extractStridedSlice S2048x8732x1 ![0, 0, 1] · slices_S2048x8732x2_S2048x8732x1_0_0_1) main_v43
  let main_v47 : FVec F S2048x8732 .f32 := shapeCast S2048x8732 main_v46 shapeCasts_S2048x8732x1_S2048x8732
  let main_v48 : FVec F S2048x8732 .f32 := mulf main_v45 main_v47
  let main_v49 : FVec F S2048x1 .f32 := (extractStridedSlice S2048x1 ![0, 2] · slices_S2048x4_S2048x1_0_2) main_arg3
  let main_v50 : FVec F S2048 .f32 := shapeCast S2048 main_v49 shapeCasts_S2048x1_S2048
  let main_v51 : FVec F S2048x1 .f32 := (extractStridedSlice S2048x1 ![0, 0] · slices_S2048x4_S2048x1_0_0) main_arg3
  let main_v52 : FVec F S2048 .f32 := shapeCast S2048 main_v51 shapeCasts_S2048x1_S2048
  let main_v53 : FVec F S2048 .f32 := subf main_v50 main_v52
  let main_v54 : FVec F S2048x1 .f32 := (extractStridedSlice S2048x1 ![0, 3] · slices_S2048x4_S2048x1_0_3) main_arg3
  let main_v55 : FVec F S2048 .f32 := shapeCast S2048 main_v54 shapeCasts_S2048x1_S2048
  let main_v56 : FVec F S2048x1 .f32 := (extractStridedSlice S2048x1 ![0, 1] · slices_S2048x4_S2048x1_0_1) main_arg3
  let main_v57 : FVec F S2048 .f32 := shapeCast S2048 main_v56 shapeCasts_S2048x1_S2048
  let main_v58 : FVec F S2048 .f32 := subf main_v55 main_v57
  let main_v59 : FVec F S2048 .f32 := mulf main_v53 main_v58
  let main_v60 : FVec F S8732x1 .f32 := (extractStridedSlice S8732x1 ![0, 2] · slices_S8732x4_S8732x1_0_2) main_arg0
  let main_v61 : FVec F S8732 .f32 := shapeCast S8732 main_v60 shapeCasts_S8732x1_S8732
  fn_part3 (F := F) main_arg0 main_v25 main_v26 main_v48 main_v59 main_v61

def fn_part1 {F : FTy → Type} [FloatOps F] (main_arg0 : FVec F S8732x4 .f32) (main_arg3 : FVec F S2048x4 .f32) (main_arg4 : IVec S2048 32) (main_v4 : IVec S2048x8732 1) (main_v13 : IVec S_ 1) (main_v17 : IVec S_ 1) : IVec S_ 1 :=
  let main_v18 : IVec S_ 1 := andi main_v13 main_v17
  let main_c_4 : IVec S_ 32 := constantI S_ 32 0#32
  let main_v19 : IVec S2048 32 := broadcastInDim S2048 ![] bcast_S_S2048 main_c_4
  let main_v20 : IVec S2048 1 := cmpi .sge main_arg4 main_v19
  let main_c_5 : IVec S_ 32 := constantI S_ 32 21#32
  let main_v21 : IVec S2048 32 := broadcastInDim S2048 ![] bcast_S_S2048 main_c_5
  let main_v22 : IVec S2048 1 := cmpi .slt main_arg4 main_v21
  let main_v23 : IVec S2048 1 := andi main_v20 main_v22
  let main_c_6 : IVec S_ 1 := constantI S_ 1 1#1
  let main_v24 : IVec S_ 1 := (fun x v => Host.reduce IntOp.andi x v reducesTo_S2048_S_d0 h_S_) main_v23 main_c_6
  let main_v25 : IVec S_ 1 := andi main_v18 main_v24
  let main_v26 : IVec S2048x8732 1 := noti main_v4
  let main_v27 : FVec F S2048x2 .f32 := (extractStridedSlice S2048x2 ![0, 0] · slices_S2048x4_S2048x2_0_0) main_arg3
  let main_v28 : FVec F S2048x1x2 .f32 := broadcastInDim S2048x1x2 ![0, 2] bcast_S2048x2_S2048x1x2_0_2 main_v27
  let main_v29 : FVec F S8732x2 .f32 := (extractStridedSlice S8732x2 ![0, 0] · slices_S8732x4_S8732x2_0_0) main_arg0
  let main_v30 : FVec F S1x8732x2 .f32 := broadcastInDim S1x8732x2 ![1, 2] bcast_S8732x2_S1x8732x2_1_2 main_v29
  let main_v31 : FVec F S2048x8732x2 .f32 := broadcastInDim S2048x8732x2 ![0, 1, 2] bcast_S2048x1x2_S2048x8732x2_0_1_2 main_v28
  let main_v32 : FVec F S2048x8732x2 .f32 := broadcastInDim S2048x8732x2 ![0, 1, 2] bcast_S1x8732x2_S2048x8732x2_0_1_2 main_v30
  let main_v33 : FVec F S2048x8732x2 .f32 := maximumf main_v31 main_v32
  let main_v34 : FVec F S2048x2 .f32 := (extractStridedSlice S2048x2 ![0, 2] · slices_S2048x4_S2048x2_0_2) main_arg3
  let main_v35 : FVec F S2048x1x2 .f32 := broadcastInDim S2048x1x2 ![0, 2] bcast_S2048x2_S2048x1x2_0_2 main_v34
  let main_v36 : FVec F S8732x2 .f32 := (extractStridedSlice S8732x2 ![0, 2] · slices_S8732x4_S8732x2_0_2) main_arg0
  let main_v37 : FVec F S1x8732x2 .f32 := broadcastInDim S1x8732x2 ![1, 2] bcast_S8732x2_S1x8732x2_1_2 main_v36
  let main_v38 : FVec F S2048x8732x2 .f32 := broadcastInDim S2048x8732x2 ![0, 1, 2] bcast_S2048x1x2_S2048x8732x2_0_1_2 main_v35
  fn_part2 (F := F) main_arg0 main_arg3 main_v25 main_v26 main_v33 main_v37 main_v38

def fn {F : FTy → Type} [FloatOps F] (main_arg0 : FVec F S8732x4 .f32) (main_arg1 : FVec F S8732 .f32) (main_arg2 : IVec S8732 32) (main_arg3 : FVec F S2048x4 .f32) (main_arg4 : IVec S2048 32) : IVec S_ 1 :=
  let main_v0 : IVec S2048x1 32 := broadcastInDim S2048x1 ![0] bcast_S2048_S2048x1_0 main_arg4
  let main_v1 : IVec S1x8732 32 := broadcastInDim S1x8732 ![1] bcast_S8732_S1x8732_1 main_arg2
  let main_v2 : IVec S2048x8732 32 := broadcastInDim S2048x8732 ![0, 1] bcast_S2048x1_S2048x8732_0_1 main_v0
  let main_v3 : IVec S2048x8732 32 := broadcastInDim S2048x8732 ![0, 1] bcast_S1x8732_S2048x8732_0_1 main_v1
  let main_v4 : IVec S2048x8732 1 := cmpi .eq main_v2 main_v3
  let main_v5 : FVec F S8732x4 .f32 := Host.absf main_arg0
  let main_cst : FVec F S_ .f32 := constant S_ .f32 0x7F800000#32
  let main_v6 : FVec F S8732x4 .f32 := broadcastInDim S8732x4 ![] bcast_S_S8732x4 main_cst
  let main_v7 : IVec S8732x4 1 := cmpf .olt main_v5 main_v6
  let main_c : IVec S_ 1 := constantI S_ 1 1#1
  let main_v8 : IVec S_ 1 := (fun x v => Host.reduce IntOp.andi x v reducesTo_S8732x4_S_d0_1 h_S_) main_v7 main_c
  let main_v9 : FVec F S8732 .f32 := Host.absf main_arg1
  let main_cst_0 : FVec F S_ .f32 := constant S_ .f32 0x7F800000#32
  let main_v10 : FVec F S8732 .f32 := broadcastInDim S8732 ![] bcast_S_S8732 main_cst_0
  let main_v11 : IVec S8732 1 := cmpf .olt main_v9 main_v10
  let main_c_1 : IVec S_ 1 := constantI S_ 1 1#1
  let main_v12 : IVec S_ 1 := (fun x v => Host.reduce IntOp.andi x v reducesTo_S8732_S_d0 h_S_) main_v11 main_c_1
  let main_v13 : IVec S_ 1 := andi main_v8 main_v12
  let main_v14 : FVec F S2048x4 .f32 := Host.absf main_arg3
  let main_cst_2 : FVec F S_ .f32 := constant S_ .f32 0x7F800000#32
  let main_v15 : FVec F S2048x4 .f32 := broadcastInDim S2048x4 ![] bcast_S_S2048x4 main_cst_2
  let main_v16 : IVec S2048x4 1 := cmpf .olt main_v14 main_v15
  let main_c_3 : IVec S_ 1 := constantI S_ 1 1#1
  let main_v17 : IVec S_ 1 := (fun x v => Host.reduce IntOp.andi x v reducesTo_S2048x4_S_d0_1 h_S_) main_v16 main_c_3
  fn_part1 (F := F) main_arg0 main_arg3 main_arg4 main_v4 main_v13 main_v17
-- ==== Kernel.lean ====
abbrev S8732x4 : Shape := ⟨2, ![8732, 4]⟩
abbrev S8732 : Shape := ⟨1, ![8732]⟩
abbrev S2048x4 : Shape := ⟨2, ![2048, 4]⟩
abbrev S2048 : Shape := ⟨1, ![2048]⟩
abbrev S2048x1 : Shape := ⟨2, ![2048, 1]⟩
abbrev S_ : Shape := ⟨0, ![]⟩
abbrev S8832x4 : Shape := ⟨2, ![8832, 4]⟩
abbrev S8832 : Shape := ⟨1, ![8832]⟩
abbrev S4x8832 : Shape := ⟨2, ![4, 8832]⟩
abbrev S1x8832 : Shape := ⟨2, ![1, 8832]⟩
abbrev S2048x2 : Shape := ⟨2, ![2048, 2]⟩
abbrev S256x4 : Shape := ⟨2, ![256, 4]⟩
abbrev S256x1 : Shape := ⟨2, ![256, 1]⟩
abbrev S4x2944 : Shape := ⟨2, ![4, 2944]⟩
abbrev S1x2944 : Shape := ⟨2, ![1, 2944]⟩
abbrev S256x2 : Shape := ⟨2, ![256, 2]⟩
abbrev S256x2944 : Shape := ⟨2, ![256, 2944]⟩
abbrev S256 : Shape := ⟨1, ![256]⟩

abbrev nBuf : Space → Nat
  | .hbm => 24
  | .vmem => 11
  | .smem => 0
  | _ => 0

abbrev bufTy : (tb : Table) → Fin (tcTables nBuf tb) → BufTy
  | .hbm, ⟨0, _⟩ => ⟨S8732x4, .f32⟩
  | .hbm, ⟨1, _⟩ => ⟨S8732, .f32⟩
  | .hbm, ⟨2, _⟩ => ⟨S8732, .i32⟩
  | .hbm, ⟨3, _⟩ => ⟨S2048x4, .f32⟩
  | .hbm, ⟨4, _⟩ => ⟨S2048, .i32⟩
  | .hbm, ⟨5, _⟩ => ⟨S2048x1, .i32⟩
  | .hbm, ⟨6, _⟩ => ⟨S_, .i32⟩
  | .hbm, ⟨7, _⟩ => ⟨S_, .f32⟩
  | .hbm, ⟨8, _⟩ => ⟨S8832x4, .f32⟩
  | .hbm, ⟨9, _⟩ => ⟨S_, .i32⟩
  | .hbm, ⟨10, _⟩ => ⟨S_, .i32⟩
  | .hbm, ⟨11, _⟩ => ⟨S8832, .i32⟩
  | .hbm, ⟨12, _⟩ => ⟨S4x8832, .f32⟩
  | .hbm, ⟨13, _⟩ => ⟨S1x8832, .i32⟩
  | .hbm, ⟨14, _⟩ => ⟨S2048x2, .f32⟩
  | .hbm, ⟨15, _⟩ => ⟨S2048x1, .f32⟩
  | .hbm, ⟨16, _⟩ => ⟨S2048, .f32⟩
  | .hbm, ⟨17, _⟩ => ⟨S_, .f32⟩
  | .hbm, ⟨18, _⟩ => ⟨S_, .f32⟩
  | .hbm, ⟨19, _⟩ => ⟨S2048x1, .f32⟩
  | .hbm, ⟨20, _⟩ => ⟨S2048, .f32⟩
  | .hbm, ⟨21, _⟩ => ⟨S_, .f32⟩
  | .hbm, ⟨22, _⟩ => ⟨S_, .f32⟩
  | .hbm, ⟨23, _⟩ => ⟨S_, .f32⟩
  | .local _ .vmem, ⟨0, _⟩ => ⟨S256x4, .f32⟩
  | .local _ .vmem, ⟨1, _⟩ => ⟨S256x4, .f32⟩
  | .local _ .vmem, ⟨2, _⟩ => ⟨S256x1, .i32⟩
  | .local _ .vmem, ⟨3, _⟩ => ⟨S256x1, .i32⟩
  | .local _ .vmem, ⟨4, _⟩ => ⟨S4x2944, .f32⟩
  | .local _ .vmem, ⟨5, _⟩ => ⟨S4x2944, .f32⟩
  | .local _ .vmem, ⟨6, _⟩ => ⟨S1x2944, .i32⟩
  | .local _ .vmem, ⟨7, _⟩ => ⟨S1x2944, .i32⟩
  | .local _ .vmem, ⟨8, _⟩ => ⟨S256x2, .f32⟩
  | .local _ .vmem, ⟨9, _⟩ => ⟨S256x2, .f32⟩
  | .local _ .vmem, ⟨10, _⟩ => ⟨S256x1, .f32⟩
  | _, _ => ⟨S8732x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_c_0 : Ref sig .tc := ⟨.hbm, 9, rfl⟩
abbrev main_call1_v0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 3], ![false, false]⟩

def k0_cond2 (i : grid0.Coords) : BitVec 1 :=
  let arg1 : BitVec 32 := BitVec.ofNat 32 (i 1).val
  let c2_i32 : BitVec 32 := 2#32
  let v61 : BitVec 1 := Scalar.cmpi .eq arg1 c2_i32
  let v62 : BitVec 32 := Scalar.extui v61
  let c0_i32_24 : BitVec 32 := 0#32
  let v63 : BitVec 1 := Scalar.cmpi .ne v62 c0_i32_24
  v63

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4x2944 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2944 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x2 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S2048_S2048x1 : S2048.ShapeCasts S2048x1
  pads_S8732x4_S8832x4_01000_000 : S8732x4.Pads (![0, 0] : Fin 2 → Nat) ![100, 0] ![0, 0] S8832x4
  h_S_ : 0 < S_.numel
  pads_S8732_S8832_01000 : S8732.Pads (![0] : Fin 1 → Nat) ![100] ![0] S8832
  transposes_S8832x4_S4x8832_1_0 : S8832x4.Transposes [1, 0] S4x8832
  shapeCasts_S8832_S1x8832 : S8832.ShapeCasts S1x8832
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S256x4_S256x1_0_0 : ∀ a, (![0, 0] : Fin 2 → Nat) a + S256x1.size a ≤ S256x4.size a
  inb_S256x4_S256x1_0_1 : ∀ a, (![0, 1] : Fin 2 → Nat) a + S256x1.size a ≤ S256x4.size a
  inb_S256x4_S256x1_0_2 : ∀ a, (![0, 2] : Fin 2 → Nat) a + S256x1.size a ≤ S256x4.size a
  inb_S256x4_S256x1_0_3 : ∀ a, (![0, 3] : Fin 2 → Nat) a + S256x1.size a ≤ S256x4.size a
  inb_S4x2944_S1x2944_0_0 : ∀ a, (![0, 0] : Fin 2 → Nat) a + S1x2944.size a ≤ S4x2944.size a
  h_S1x2944 : 0 < S1x2944.numel
  shapeCasts_S1x2944_S1x2944 : S1x2944.ShapeCasts S1x2944
  inb_S4x2944_S1x2944_1_0 : ∀ a, (![1, 0] : Fin 2 → Nat) a + S1x2944.size a ≤ S4x2944.size a
  inb_S4x2944_S1x2944_2_0 : ∀ a, (![2, 0] : Fin 2 → Nat) a + S1x2944.size a ≤ S4x2944.size a
  inb_S4x2944_S1x2944_3_0 : ∀ a, (![3, 0] : Fin 2 → Nat) a + S1x2944.size a ≤ S4x2944.size a
  broadcasts_S256x1_S256x2944 : S256x1.Broadcasts S256x2944
  broadcasts_S1x2944_S256x2944 : S1x2944.Broadcasts S256x2944
  inb_S1x2944_S1x2944_0_0 : ∀ a, (![0, 0] : Fin 2 → Nat) a + S1x2944.size a ≤ S1x2944.size a
  reduces_S256x2944_S256 : S256x2944.Reduces [1] S256
  shapeCasts_S256_S256x1 : S256.ShapeCasts S256x1
  natLt_1_32 : 1 < 32
  concatenates_S256x1_S256x1_S256x2_d1 : Shape.Concatenates [S256x1, S256x1] S256x2 1
  inb_S256x2_S256x2_0_0 : ∀ a, (![0, 0] : Fin 2 → Nat) a + S256x2.size a ≤ S256x2.size a
  h_S256x2 : 0 < S256x2.numel
  slices_S2048x2_S2048x1_0_0 : S2048x2.Slices ![0, 0] S2048x1
  shapeCasts_S2048x1_S2048 : S2048x1.ShapeCasts S2048
  reducesTo_S2048_S_d0 : S2048.ReducesTo [0] S_
  slices_S2048x2_S2048x1_0_1 : S2048x2.Slices ![0, 1] S2048x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4.size a ≤ S2048x4.size a
  hwx0_0 : ∀ i : grid0.Coords, EltTy.bits .f32 = 32 ∨ (Rect.block (s := S2048x4) S256x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S2048x1.size a
  hwx0_1 : ∀ i : grid0.Coords, EltTy.bits .i32 = 32 ∨ (Rect.block (s := S2048x1) S256x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x2944.size a ≤ S4x8832.size a
  hwx0_2 : ∀ i : grid0.Coords, EltTy.bits .f32 = 32 ∨ (Rect.block (s := S4x8832) S4x2944.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2944.size a ≤ S1x8832.size a
  hwx0_3 : ∀ i : grid0.Coords, EltTy.bits .i32 = 32 ∨ (Rect.block (s := S1x8832) S1x2944.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x2.size a ≤ S2048x2.size a
  hwx0_4 : ∀ i : grid0.Coords, EltTy.bits .f32 = 32 ∨ (Rect.block (s := S2048x2) S256x2.size (cc0_transform_4 i) (hinb0_4 i)).WholeWords (EltTy.packing .f32)

variable [Facts₀]

abbrev win0_0 : Pipeline.Window sig grid0 :=
  Pipeline.Window.ofSpec (Memref.whole main_arg3) S256x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S4x2944.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x2944.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S256x2.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8732x4 : Shape := ⟨2, ![8732, 4]⟩
abbrev S8732 : Shape := ⟨1, ![8732]⟩
abbrev S2048x4 : Shape := ⟨2, ![2048, 4]⟩
abbrev S2048 : Shape := ⟨1, ![2048]⟩
abbrev S2048x2 : Shape := ⟨2, ![2048, 2]⟩
abbrev S2048x1x2 : Shape := ⟨3, ![2048, 1, 2]⟩
abbrev S8732x2 : Shape := ⟨2, ![8732, 2]⟩
abbrev S1x8732x2 : Shape := ⟨3, ![1, 8732, 2]⟩
abbrev S2048x8732x2 : Shape := ⟨3, ![2048, 8732, 2]⟩
abbrev S_ : Shape := ⟨0, ![]⟩
abbrev S2048x8732x1 : Shape := ⟨3, ![2048, 8732, 1]⟩
abbrev S2048x8732 : Shape := ⟨2, ![2048, 8732]⟩
abbrev S2048x1 : Shape := ⟨2, ![2048, 1]⟩
abbrev S8732x1 : Shape := ⟨2, ![8732, 1]⟩
abbrev S1x8732 : Shape := ⟨2, ![1, 8732]⟩

abbrev nBuf : Space → Nat
  | .hbm => 85
  | .vmem => 0
  | .smem => 0
  | _ => 0

abbrev bufTy : (tb : Table) → Fin (tcTables nBuf tb) → BufTy
  | .hbm, ⟨0, _⟩ => ⟨S8732x4, .f32⟩
  | .hbm, ⟨1, _⟩ => ⟨S8732, .f32⟩
  | .hbm, ⟨2, _⟩ => ⟨S8732, .i32⟩
  | .hbm, ⟨3, _⟩ => ⟨S2048x4, .f32⟩
  | .hbm, ⟨4, _⟩ => ⟨S2048, .i32⟩
  | .hbm, ⟨5, _⟩ => ⟨S2048x2, .f32⟩
  | .hbm, ⟨6, _⟩ => ⟨S2048x1x2, .f32⟩
  | .hbm, ⟨7, _⟩ => ⟨S8732x2, .f32⟩
  | .hbm, ⟨8, _⟩ => ⟨S1x8732x2, .f32⟩
  | .hbm, ⟨9, _⟩ => ⟨S2048x8732x2, .f32⟩
  | .hbm, ⟨10, _⟩ => ⟨S2048x8732x2, .f32⟩
  | .hbm, ⟨11, _⟩ => ⟨S2048x8732x2, .f32⟩
  | .hbm, ⟨12, _⟩ => ⟨S2048x2, .f32⟩
  | .hbm, ⟨13, _⟩ => ⟨S2048x1x2, .f32⟩
  | .hbm, ⟨14, _⟩ => ⟨S8732x2, .f32⟩
  | .hbm, ⟨15, _⟩ => ⟨S1x8732x2, .f32⟩
  | .hbm, ⟨16, _⟩ => ⟨S2048x8732x2, .f32⟩
  | .hbm, ⟨17, _⟩ => ⟨S2048x8732x2, .f32⟩
  | .hbm, ⟨18, _⟩ => ⟨S2048x8732x2, .f32⟩
  | .hbm, ⟨19, _⟩ => ⟨S2048x8732x2, .f32⟩
  | .hbm, ⟨20, _⟩ => ⟨S_, .f32⟩
  | .hbm, ⟨21, _⟩ => ⟨S_, .f32⟩
  | .hbm, ⟨22, _⟩ => ⟨S2048x8732x2, .f32⟩
  | .hbm, ⟨23, _⟩ => ⟨S2048x8732x2, .f32⟩
  | .hbm, ⟨24, _⟩ => ⟨S2048x8732x1, .f32⟩
  | .hbm, ⟨25, _⟩ => ⟨S2048x8732, .f32⟩
  | .hbm, ⟨26, _⟩ => ⟨S2048x8732x1, .f32⟩
  | .hbm, ⟨27, _⟩ => ⟨S2048x8732, .f32⟩
  | .hbm, ⟨28, _⟩ => ⟨S2048x8732, .f32⟩
  | .hbm, ⟨29, _⟩ => ⟨S2048x1, .f32⟩
  | .hbm, ⟨30, _⟩ => ⟨S2048, .f32⟩
  | .hbm, ⟨31, _⟩ => ⟨S2048x1, .f32⟩
  | .hbm, ⟨32, _⟩ => ⟨S2048, .f32⟩
  | .hbm, ⟨33, _⟩ => ⟨S2048, .f32⟩
  | .hbm, ⟨34, _⟩ => ⟨S2048x1, .f32⟩
  | .hbm, ⟨35, _⟩ => ⟨S2048, .f32⟩
  | .hbm, ⟨36, _⟩ => ⟨S2048x1, .f32⟩
  | .hbm, ⟨37, _⟩ => ⟨S2048, .f32⟩
  | .hbm, ⟨38, _⟩ => ⟨S2048, .f32⟩
  | .hbm, ⟨39, _⟩ => ⟨S2048, .f32⟩
  | .hbm, ⟨40, _⟩ => ⟨S8732x1, .f32⟩
  | .hbm, ⟨41, _⟩ => ⟨S8732, .f32⟩
  | .hbm, ⟨42, _⟩ => ⟨S8732x1, .f32⟩
  | .hbm, ⟨43, _⟩ => ⟨S8732, .f32⟩
  | .hbm, ⟨44, _⟩ => ⟨S8732, .f32⟩
  | .hbm, ⟨45, _⟩ => ⟨S8732x1, .f32⟩
  | .hbm, ⟨46, _⟩ => ⟨S8732, .f32⟩
  | .hbm, ⟨47, _⟩ => ⟨S8732x1, .f32⟩
  | .hbm, ⟨48, _⟩ => ⟨S8732, .f32⟩
  | .hbm, ⟨49, _⟩ => ⟨S8732, .f32⟩
  | .hbm, ⟨50, _⟩ => ⟨S8732, .f32⟩
  | .hbm, ⟨51, _⟩ => ⟨S2048x1, .f32⟩
  | .hbm, ⟨52, _⟩ => ⟨S1x8732, .f32⟩
  | .hbm, ⟨53, _⟩ => ⟨S2048x8732, .f32⟩
  | .hbm, ⟨54, _⟩ => ⟨S2048x8732, .f32⟩
  | .hbm, ⟨55, _⟩ => ⟨S2048x8732, .f32⟩
  | .hbm, ⟨56, _⟩ => ⟨S2048x8732, .f32⟩
  | .hbm, ⟨57, _⟩ => ⟨S2048x8732, .f32⟩
  | .hbm, ⟨58, _⟩ => ⟨S2048x1, .i32⟩
  | .hbm, ⟨59, _⟩ => ⟨S1x8732, .i32⟩
  | .hbm, ⟨60, _⟩ => ⟨S2048x8732, .i32⟩
  | .hbm, ⟨61, _⟩ => ⟨S2048x8732, .i32⟩
  | .hbm, ⟨62, _⟩ => ⟨S2048x8732, .i1⟩
  | .hbm, ⟨63, _⟩ => ⟨S_, .f32⟩
  | .hbm, ⟨64, _⟩ => ⟨S_, .f32⟩
  | .hbm, ⟨65, _⟩ => ⟨S2048x8732, .f32⟩
  | .hbm, ⟨66, _⟩ => ⟨S2048x8732, .f32⟩
  | .hbm, ⟨67, _⟩ => ⟨S_, .f32⟩
  | .hbm, ⟨68, _⟩ => ⟨S2048, .f32⟩
  | .hbm, ⟨69, _⟩ => ⟨S_, .i1⟩
  | .hbm, ⟨70, _⟩ => ⟨S2048, .i1⟩
  | .hbm, ⟨71, _⟩ => ⟨S2048, .i32⟩
  | .hbm, ⟨72, _⟩ => ⟨S_, .i32⟩
  | .hbm, ⟨73, _⟩ => ⟨S_, .i32⟩
  | .hbm, ⟨74, _⟩ => ⟨S_, .f32⟩
  | .hbm, ⟨75, _⟩ => ⟨S_, .f32⟩
  | .hbm, ⟨76, _⟩ => ⟨S2048, .f32⟩
  | .hbm, ⟨77, _⟩ => ⟨S2048, .f32⟩
  | .hbm, ⟨78, _⟩ => ⟨S_, .f32⟩
  | .hbm, ⟨79, _⟩ => ⟨S_, .f32⟩
  | .hbm, ⟨80, _⟩ => ⟨S2048, .f32⟩
  | .hbm, ⟨81, _⟩ => ⟨S2048, .f32⟩
  | .hbm, ⟨82, _⟩ => ⟨S_, .f32⟩
  | .hbm, ⟨83, _⟩ => ⟨S_, .f32⟩
  | .hbm, ⟨84, _⟩ => ⟨S_, .f32⟩
  | _, _ => ⟨S8732x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_call0_v0 : Ref sig .tc := ⟨.hbm, 21, rfl⟩
abbrev main_call0_v1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_cst_0 : Ref sig .tc := ⟨.hbm, 63, rfl⟩
abbrev main_call1_v0 : Ref sig .tc := ⟨.hbm, 64, rfl⟩
abbrev main_call1_v1 : Ref sig .tc := ⟨.hbm, 65, rfl⟩
abbrev main_v55 : Ref sig .tc := ⟨.hbm, 66, rfl⟩
abbrev main_cst_1 : Ref sig .tc := ⟨.hbm, 67, rfl⟩
abbrev main_v56 : Ref sig .tc := ⟨.hbm, 68, rfl⟩
abbrev main_c : Ref sig .tc := ⟨.hbm, 69, rfl⟩
abbrev main_v57 : Ref sig .tc := ⟨.hbm, 70, rfl⟩
abbrev main_v58 : Ref sig .tc := ⟨.hbm, 71, rfl⟩
abbrev main_c_2 : Ref sig .tc := ⟨.hbm, 72, rfl⟩
abbrev main_v59 : Ref sig .tc := ⟨.hbm, 73, rfl⟩
abbrev main_v60 : Ref sig .tc := ⟨.hbm, 74, rfl⟩
abbrev main_cst_3 : Ref sig .tc := ⟨.hbm, 75, rfl⟩
abbrev main_v61 : Ref sig .tc := ⟨.hbm, 76, rfl⟩
abbrev main_v62 : Ref sig .tc := ⟨.hbm, 77, rfl⟩
abbrev main_cst_4 : Ref sig .tc := ⟨.hbm, 78, rfl⟩
abbrev main_call2_v0 : Ref sig .tc := ⟨.hbm, 79, rfl⟩
abbrev main_call2_v1 : Ref sig .tc := ⟨.hbm, 80, rfl⟩
abbrev main_v63 : Ref sig .tc := ⟨.hbm, 81, rfl⟩
abbrev main_cst_5 : Ref sig .tc := ⟨.hbm, 82, rfl⟩
abbrev main_v64 : Ref sig .tc := ⟨.hbm, 83, rfl⟩
abbrev main_v65 : Ref sig .tc := ⟨.hbm, 84, rfl⟩

abbrev nD : Nat := 1
abbrev τ : Topo := Topo.v7x

variable {F : FTy → Type} [FloatOps F]

class Facts₀ : Prop where
  slices_S2048x4_S2048x2_0_0 : S2048x4.Slices ![0, 0] S2048x2
  bcast_S2048x2_S2048x1x2_0_2 : S2048x2.BroadcastsInDim S2048x1x2 (![0, 2] : Fin 2 → Fin S2048x1x2.rank)
  slices_S8732x4_S8732x2_0_0 : S8732x4.Slices ![0, 0] S8732x2
  bcast_S8732x2_S1x8732x2_1_2 : S8732x2.BroadcastsInDim S1x8732x2 (![1, 2] : Fin 2 → Fin S1x8732x2.rank)
  bcast_S2048x1x2_S2048x8732x2_0_1_2 : S2048x1x2.BroadcastsInDim S2048x8732x2 (![0, 1, 2] : Fin 3 → Fin S2048x8732x2.rank)
  bcast_S1x8732x2_S2048x8732x2_0_1_2 : S1x8732x2.BroadcastsInDim S2048x8732x2 (![0, 1, 2] : Fin 3 → Fin S2048x8732x2.rank)
  slices_S2048x4_S2048x2_0_2 : S2048x4.Slices ![0, 2] S2048x2
  slices_S8732x4_S8732x2_0_2 : S8732x4.Slices ![0, 2] S8732x2
  bcast_S_S2048x8732x2 : S_.BroadcastsInDim S2048x8732x2 (![] : Fin 0 → Fin S2048x8732x2.rank)
  slices_S2048x8732x2_S2048x8732x1_0_0_0 : S2048x8732x2.Slices ![0, 0, 0] S2048x8732x1
  shapeCasts_S2048x8732x1_S2048x8732 : S2048x8732x1.ShapeCasts S2048x8732
  slices_S2048x8732x2_S2048x8732x1_0_0_1 : S2048x8732x2.Slices ![0, 0, 1] S2048x8732x1
  slices_S2048x4_S2048x1_0_2 : S2048x4.Slices ![0, 2] S2048x1
  shapeCasts_S2048x1_S2048 : S2048x1.ShapeCasts S2048
  slices_S2048x4_S2048x1_0_0 : S2048x4.Slices ![0, 0] S2048x1
  slices_S2048x4_S2048x1_0_3 : S2048x4.Slices ![0, 3] S2048x1
  slices_S2048x4_S2048x1_0_1 : S2048x4.Slices ![0, 1] S2048x1
  slices_S8732x4_S8732x1_0_2 : S8732x4.Slices ![0, 2] S8732x1
  shapeCasts_S8732x1_S8732 : S8732x1.ShapeCasts S8732
  slices_S8732x4_S8732x1_0_0 : S8732x4.Slices ![0, 0] S8732x1
  slices_S8732x4_S8732x1_0_3 : S8732x4.Slices ![0, 3] S8732x1
  slices_S8732x4_S8732x1_0_1 : S8732x4.Slices ![0, 1] S8732x1
  bcast_S2048_S2048x1_0 : S2048.BroadcastsInDim S2048x1 (![0] : Fin 1 → Fin S2048x1.rank)
  bcast_S8732_S1x8732_1 : S8732.BroadcastsInDim S1x8732 (![1] : Fin 1 → Fin S1x8732.rank)
  bcast_S2048x1_S2048x8732_0_1 : S2048x1.BroadcastsInDim S2048x8732 (![0, 1] : Fin 2 → Fin S2048x8732.rank)
  bcast_S1x8732_S2048x8732_0_1 : S1x8732.BroadcastsInDim S2048x8732 (![0, 1] : Fin 2 → Fin S2048x8732.rank)
  bcast_S_S2048x8732 : S_.BroadcastsInDim S2048x8732 (![] : Fin 0 → Fin S2048x8732.rank)
  reducesTo_S2048x8732_S2048_d1 : S2048x8732.ReducesTo [1] S2048
  h_S_ : 0 < S_.numel
  natLt_1_32 : 1 < 32
  reducesTo_S2048_S_d0 : S2048.ReducesTo [0] S_
  bcast_S_S2048 : S_.BroadcastsInDim S2048 (![] : Fin 0 → Fin S2048.rank)

variable [Facts₀]

class Facts : Prop extends Facts₀ where

variable [Facts]
-- ==== Proof.RefRun.lean ====
/-
  The reference program's run.

  The reference is a straight line of 80 host operations, three of them calls of small functions
  (a clip and two selects) whose operations stand in the calls' places.  Every weakly fair
  execution of it ends with each buffer at the operations' results folded over the launch contents
  (the library's `run_seq`), and for the result buffer that fold is the composed term
  `res_main_v65` of the argument arrays.

  A value that crosses a called function is carried through a typed reference, whose two
  transports are the identity.  Inside the run's proof they are stated once each, over a variable,
  and removed from the folded term before it is compared with the composed one: a transport left
  around a full-size reduction would make that comparison open the reduction.
-/
import proofs.«118736_j31619549233713_2_alg».proof.Proof.RefRunP
import Idealize.ShloMosaic.Lib.StableHlo.Run

noncomputable section

namespace Cert.ReferenceIdeal.RefRun

open Cert.ReferenceIdeal Cert.ReferenceIdeal.Gen Cert.ReferenceIdeal.ValueP
open Idealize.ShloMosaic Idealize.ShloMosaic.TcCoe Idealize.SL.Sem Idealize.ShloMosaic.StableHlo

variable {F : FTy → Type} [FloatOps F]

/-! ## The run -/

set_option maxRecDepth 65536 in
set_option maxHeartbeats 32000000 in
/-- On every device, for any float values, from any memory with zero counters: every weakly fair execution of
    the reference terminates with its result at the operations' composed term of the arguments and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v65) = res_main_v65 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v65).trans (by
      have hof_main_cst : ∀ v : main_cst.ty.Contents (Elt F), (TRef.of (T := ⟨S_, .f32⟩) main_cst).ofBuf v = v := fun _ => rfl
      have hto_main_cst : ∀ v : (⟨S_, .f32⟩ : BufTy).Contents (Elt F), (TRef.of (T := ⟨S_, .f32⟩) main_cst).toBuf v = v := fun _ => rfl
      have hof_main_call0_v0 : ∀ v : main_call0_v0.ty.Contents (Elt F), (TRef.of (T := ⟨S_, .f32⟩) main_call0_v0).ofBuf v = v := fun _ => rfl
      have hto_main_call0_v0 : ∀ v : (⟨S_, .f32⟩ : BufTy).Contents (Elt F), (TRef.of (T := ⟨S_, .f32⟩) main_call0_v0).toBuf v = v := fun _ => rfl
      have hof_main_call0_v1 : ∀ v : main_call0_v1.ty.Contents (Elt F), (TRef.of (T := ⟨S2048x8732x2, .f32⟩) main_call0_v1).ofBuf v = v := fun _ => rfl
      have hto_main_call0_v1 : ∀ v : (⟨S2048x8732x2, .f32⟩ : BufTy).Contents (Elt F), (TRef.of (T := ⟨S2048x8732x2, .f32⟩) main_call0_v1).toBuf v = v := fun _ => rfl
      have hof_main_v14 : ∀ v : main_v14.ty.Contents (Elt F), (TRef.of (T := ⟨S2048x8732x2, .f32⟩) main_v14).ofBuf v = v := fun _ => rfl
      have hto_main_v14 : ∀ v : (⟨S2048x8732x2, .f32⟩ : BufTy).Contents (Elt F), (TRef.of (T := ⟨S2048x8732x2, .f32⟩) main_v14).toBuf v = v := fun _ => rfl
      have hof_main_v15 : ∀ v : main_v15.ty.Contents (Elt F), (TRef.of (T := ⟨S2048x8732x2, .f32⟩) main_v15).ofBuf v = v := fun _ => rfl
      have hto_main_v15 : ∀ v : (⟨S2048x8732x2, .f32⟩ : BufTy).Contents (Elt F), (TRef.of (T := ⟨S2048x8732x2, .f32⟩) main_v15).toBuf v = v := fun _ => rfl
      have hof_main_cst_0 : ∀ v : main_cst_0.ty.Contents (Elt F), (TRef.of (T := ⟨S_, .f32⟩) main_cst_0).ofBuf v = v := fun _ => rfl
      have hto_main_cst_0 : ∀ v : (⟨S_, .f32⟩ : BufTy).Contents (Elt F), (TRef.of (T := ⟨S_, .f32⟩) main_cst_0).toBuf v = v := fun _ => rfl
      have hof_main_call1_v0 : ∀ v : main_call1_v0.ty.Contents (Elt F), (TRef.of (T := ⟨S_, .f32⟩) main_call1_v0).ofBuf v = v := fun _ => rfl
      have hto_main_call1_v0 : ∀ v : (⟨S_, .f32⟩ : BufTy).Contents (Elt F), (TRef.of (T := ⟨S_, .f32⟩) main_call1_v0).toBuf v = v := fun _ => rfl
      have hof_main_call1_v1 : ∀ v : main_call1_v1.ty.Contents (Elt F), (TRef.of (T := ⟨S2048x8732, .f32⟩) main_call1_v1).ofBuf v = v := fun _ => rfl
      have hto_main_call1_v1 : ∀ v : (⟨S2048x8732, .f32⟩ : BufTy).Contents (Elt F), (TRef.of (T := ⟨S2048x8732, .f32⟩) main_call1_v1).toBuf v = v := fun _ => rfl
      have hof_main_v54 : ∀ v : main_v54.ty.Contents (Elt F), (TRef.of (T := ⟨S2048x8732, .i1⟩) main_v54).ofBuf v = v := fun _ => rfl
      have hto_main_v54 : ∀ v : (⟨S2048x8732, .i1⟩ : BufTy).Contents (Elt F), (TRef.of (T := ⟨S2048x8732, .i1⟩) main_v54).toBuf v = v := fun _ => rfl
      have hof_main_v49 : ∀ v : main_v49.ty.Contents (Elt F), (TRef.of (T := ⟨S2048x8732, .f32⟩) main_v49).ofBuf v = v := fun _ => rfl
      have hto_main_v49 : ∀ v : (⟨S2048x8732, .f32⟩ : BufTy).Contents (Elt F), (TRef.of (T := ⟨S2048x8732, .f32⟩) main_v49).toBuf v = v := fun _ => rfl
      have hof_main_v55 : ∀ v : main_v55.ty.Contents (Elt F), (TRef.of (T := ⟨S2048x8732, .f32⟩) main_v55).ofBuf v = v := fun _ => rfl
      have hto_main_v55 : ∀ v : (⟨S2048x8732, .f32⟩ : BufTy).Contents (Elt F), (TRef.of (T := ⟨S2048x8732, .f32⟩) main_v55).toBuf v = v := fun _ => rfl
      have hof_main_cst_4 : ∀ v : main_cst_4.ty.Contents (Elt F), (TRef.of (T := ⟨S_, .f32⟩) main_cst_4).ofBuf v = v := fun _ => rfl
      have hto_main_cst_4 : ∀ v : (⟨S_, .f32⟩ : BufTy).Contents (Elt F), (TRef.of (T := ⟨S_, .f32⟩) main_cst_4).toBuf v = v := fun _ => rfl
      have hof_main_call2_v0 : ∀ v : main_call2_v0.ty.Contents (Elt F), (TRef.of (T := ⟨S_, .f32⟩) main_call2_v0).ofBuf v = v := fun _ => rfl
      have hto_main_call2_v0 : ∀ v : (⟨S_, .f32⟩ : BufTy).Contents (Elt F), (TRef.of (T := ⟨S_, .f32⟩) main_call2_v0).toBuf v = v := fun _ => rfl
      have hof_main_call2_v1 : ∀ v : main_call2_v1.ty.Contents (Elt F), (TRef.of (T := ⟨S2048, .f32⟩) main_call2_v1).ofBuf v = v := fun _ => rfl
      have hto_main_call2_v1 : ∀ v : (⟨S2048, .f32⟩ : BufTy).Contents (Elt F), (TRef.of (T := ⟨S2048, .f32⟩) main_call2_v1).toBuf v = v := fun _ => rfl
      have hof_main_v57 : ∀ v : main_v57.ty.Contents (Elt F), (TRef.of (T := ⟨S2048, .i1⟩) main_v57).ofBuf v = v := fun _ => rfl
      have hto_main_v57 : ∀ v : (⟨S2048, .i1⟩ : BufTy).Contents (Elt F), (TRef.of (T := ⟨S2048, .i1⟩) main_v57).toBuf v = v := fun _ => rfl
      have hof_main_v62 : ∀ v : main_v62.ty.Contents (Elt F), (TRef.of (T := ⟨S2048, .f32⟩) main_v62).ofBuf v = v := fun _ => rfl
      have hto_main_v62 : ∀ v : (⟨S2048, .f32⟩ : BufTy).Contents (Elt F), (TRef.of (T := ⟨S2048, .f32⟩) main_v62).toBuf v = v := fun _ => rfl
      have hof_main_v63 : ∀ v : main_v63.ty.Contents (Elt F), (TRef.of (T := ⟨S2048, .f32⟩) main_v63).ofBuf v = v := fun _ => rfl
      have hto_main_v63 : ∀ v : (⟨S2048, .f32⟩ : BufTy).Contents (Elt F), (TRef.of (T := ⟨S2048, .f32⟩) main_v63).toBuf v = v := fun _ => rfl
      after_results_simp
      simp only [hof_main_cst, hto_main_cst, hof_main_call0_v0, hto_main_call0_v0, hof_main_call0_v1, hto_main_call0_v1, hof_main_v14, hto_main_v14, hof_main_v15, hto_main_v15, hof_main_cst_0, hto_main_cst_0, hof_main_call1_v0, hto_main_call1_v0, hof_main_call1_v1, hto_main_call1_v1, hof_main_v54, hto_main_v54, hof_main_v49, hto_main_v49, hof_main_v55, hto_main_v55, hof_main_cst_4, hto_main_cst_4, hof_main_call2_v0, hto_main_call2_v0, hof_main_call2_v1, hto_main_call2_v1, hof_main_v57, hto_main_v57, hof_main_v62, hto_main_v62, hof_main_v63, hto_main_v63]
      unfold res_main_v65
      rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl)⟩)
    (run_seq scopedRefs_eq scopedSems_eq defs main (fun _ => ops) main_eq (fun _ => ops_sub) m ρ)

end Cert.ReferenceIdeal.RefRun

end
-- ==== Proof.Spec.lean ====
/-
  The mathematics of the certificate, free of any program.

  A box is four extended reals (x1, y1, x2, y2).  For an object box `b` and a detection box `d`
  the overlap is `inter b d / union b d`, the intersection being the product of the two clipped
  extents and the union `area b + area d - inter b d`.  Every object keeps the largest overlap
  among the detections that carry its label (`-∞` when there is none); an object with at least
  one such detection contributes `1 - best`; the result is the sum of the contributions divided
  by the number of contributing objects.

  Two arrangements of that computation are stated here.  `result` scans the 8732 detections in
  one sweep and decides "has a detection of its label" by the labels alone.  `resultTiled` scans
  8832 columns (the detections followed by 100 filler columns: a zero box carrying the label
  `-1`) in three tiles of 2944, keeps a running maximum started at `-∞`, and decides "has a
  detection of its label" by the running maximum being above `-∞`.
-/
import Idealize.ShloMosaic.PureOps.Ideal
import Idealize.ShloMosaic.Lib.ValueIdx

noncomputable section

open scoped BigOperators Classical

namespace Cert.Iou

open Idealize.ShloMosaic

/-- Area of the intersection of two boxes: the product of the two extents, each clipped below at zero. -/
def inter (b d : Fin 4 → EReal) : EReal :=
  max (min (b 2) (d 2) - max (b 0) (d 0)) 0 * max (min (b 3) (d 3) - max (b 1) (d 1)) 0

/-- Area of a box in corner form. -/
def area (b : Fin 4 → EReal) : EReal := (b 2 - b 0) * (b 3 - b 1)

/-- Area of the union of two boxes. -/
def union (b d : Fin 4 → EReal) : EReal := area b + area d - inter b d

/-- Intersection over union, the quotient being the extended reals' (`x / 0` included). -/
def iou (b d : Fin 4 → EReal) : EReal := Ideal.div (inter b d) (union b d)

section oneSweep

variable (B : Fin 2048 → Fin 4 → EReal) (D : Fin 8732 → Fin 4 → EReal)
  (L : Fin 2048 → BitVec 32) (DL : Fin 8732 → BitVec 32)

/-- The overlap of object `o` with detection `d` when their labels agree, `-∞` otherwise. -/
def masked (o : Fin 2048) (d : Fin 8732) : EReal := if L o = DL d then iou (B o) (D d) else ⊥

/-- The best overlap of object `o` among the detections of its label. -/
def best (o : Fin 2048) : EReal := Finset.univ.fold max ⊥ (masked B D L DL o)

/-- Object `o` has a detection of its label. -/
def matched (o : Fin 2048) : Prop := ∃ d, L o = DL d

/-- What object `o` adds to the loss. -/
def term (o : Fin 2048) : EReal := if matched L DL o then 1 - best B D L DL o else 0

/-- The loss: the contributions' sum over the number of objects that have a detection of their label. -/
def result : EReal :=
  Ideal.div (∑ o, term B D L DL o) (((Finset.univ.filter (matched L DL)).card : ℝ) : EReal)

end oneSweep

section tiled

variable (B : Fin 2048 → Fin 4 → EReal) (D : Fin 8732 → Fin 4 → EReal)
  (L : Fin 2048 → BitVec 32) (DL : Fin 8732 → BitVec 32)

/-- The detection boxes followed by 100 zero boxes. -/
def padD (d : Fin 8832) : Fin 4 → EReal := if h : d.val < 8732 then D ⟨d.val, h⟩ else fun _ => 0

/-- The detection labels followed by 100 labels `-1`. -/
def padL (d : Fin 8832) : BitVec 32 := if h : d.val < 8732 then DL ⟨d.val, h⟩ else 4294967295#32

/-- The masked overlap over the 8832 columns. -/
def maskedP (o : Fin 2048) (d : Fin 8832) : EReal :=
  if L o = padL DL d then iou (B o) (padD D d) else ⊥

/-- Column `k` of tile `j`. -/
def col (j : Fin 3) (k : Fin 2944) : Fin 8832 := ⟨j.val * 2944 + k.val, by have := j.isLt; have := k.isLt; omega⟩

/-- The largest masked overlap of object `o` inside tile `j`. -/
def tileMax (o : Fin 2048) (j : Fin 3) : EReal :=
  Finset.univ.fold max ⊥ (fun k : Fin 2944 => maskedP B D L DL o (col j k))

/-- The running maximum after tiles `0 … j`, started at `-∞`. -/
def run (o : Fin 2048) : ℕ → EReal
  | 0 => max ⊥ (tileMax B D L DL o 0)
  | 1 => max (run o 0) (tileMax B D L DL o 1)
  | _ + 2 => max (run o 1) (tileMax B D L DL o 2)

/-- The two numbers object `o` ends with: its contribution and its 0/1 flag. -/
def outK (o : Fin 2048) (c : Fin 2) : EReal :=
  if c.val = 0 then (if ⊥ < run B D L DL o 2 then 1 - run B D L DL o 2 else 0)
  else (if ⊥ < run B D L DL o 2 then 1 else 0)

/-- The loss in the tiled arrangement. -/
def resultTiled : EReal := Ideal.div (∑ o, outK B D L DL o 0) (∑ o, outK B D L DL o 1)

end tiled

/-- The hypotheses under which the two arrangements agree: every coordinate is a real number, no
    object carries the filler label `-1`, and no pair of equal labels has a zero union. -/
structure Domain (B : Fin 2048 → Fin 4 → EReal) (D : Fin 8732 → Fin 4 → EReal)
    (L : Fin 2048 → BitVec 32) (DL : Fin 8732 → BitVec 32) : Prop where
  realB : ∀ o c, ∃ r : ℝ, B o c = (r : EReal)
  realD : ∀ d c, ∃ r : ℝ, D d c = (r : EReal)
  label : ∀ o, L o ≠ 4294967295#32
  unionNe : ∀ o d, L o = DL d → union (B o) (D d) ≠ 0

end Cert.Iou

end
-- ==== Proof.PreDomain.lean ====
/-
  The printed precondition gives the hypotheses under which the two arrangements of the loss agree.

  The precondition is a conjunction of five "for all" tests: every detection coordinate, every
  detection score and every object coordinate has a finite absolute value; every object label lies
  in [0, 21) as a signed integer; and for every pair (object, detection) either the two labels
  differ or the union of the two boxes is not zero.  An extended real whose absolute value is below
  +∞ is a real number; a label that is at least 0 as a signed integer is not the word of all ones;
  and the union the precondition computes, read at the pair (o, d), is the union of the two boxes
  as the specification writes it (the clip at zero being `max 0 x` there and `max x 0` here).
-/
import proofs.«118736_j31619549233713_2_alg».proof.Proof.Spec
import proofs.«118736_j31619549233713_2_alg».proof.Pre_finite_inputs
import proofs.«118736_j31619549233713_2_alg».proof.Proof.Gen.Pre_finite_inputs
import Idealize.ShloMosaic.Lib.ReduceAll
import Idealize.ShloMosaic.Lib.ValueIdx
import Idealize.ShloMosaic.Lib.Pipeline.Value
import Idealize.ShloMosaic.PureOps.Ideal.Laws

noncomputable section

open scoped BigOperators Classical

namespace Cert.Iou

open Idealize.ShloMosaic Idealize.ShloMosaic.ValueIdx Cert.Pre_finite_inputs Cert.Pre_finite_inputs.Facts

/-- The scalar shape has one index. -/
instance subsingleton_scalar_idx : Subsingleton S_.Idx := ⟨fun a b => funext fun d => d.elim0⟩

/-! ### Layout operations read at an index given by its coordinates -/

section Layout
variable {α : Type}

/-- A broadcast scalar reads the scalar everywhere. -/
theorem bcast_scalar {t : Shape} (h : S_.BroadcastsInDim t (![] : Fin 0 → Fin t.rank)) (x : S_.Idx → α) (j : t.Idx) :
    broadcastInDim t ![] h x j = x ix0 :=
  broadcastInDim_apply _ h x j ix0 (fun a => a.elim0)

/-- A vector over the objects broadcast along the detections reads, at (o, d), its entry o. -/
theorem bcast_row2 (h1 : S2048.BroadcastsInDim S2048x1 (![0] : Fin 1 → Fin S2048x1.rank))
    (h2 : S2048x1.BroadcastsInDim S2048x8732 (![0, 1] : Fin 2 → Fin S2048x8732.rank))
    (x : S2048.Idx → α) (o : Fin 2048) (d : Fin 8732) :
    broadcastInDim S2048x8732 ![0, 1] h2 (broadcastInDim S2048x1 ![0] h1 x) (ix2 o d) = x (ix1 o) := by
  refine (broadcastInDim_apply _ h2 _ (ix2 o d) (ix2 o (0 : Fin 1)) (fun a => match a with
    | ⟨0, _⟩ => by show o.val = if (2048 : Nat) = 1 then 0 else o.val; rw [if_neg (by decide)]
    | ⟨1, _⟩ => by show 0 = if (1 : Nat) = 1 then 0 else d.val; rw [if_pos rfl])).trans ?_
  exact broadcastInDim_apply _ h1 x (ix2 o (0 : Fin 1)) (ix1 o) (fun a => match a with
    | ⟨0, _⟩ => by show o.val = if (2048 : Nat) = 1 then 0 else o.val; rw [if_neg (by decide)])

/-- A vector over the detections broadcast along the objects reads, at (o, d), its entry d. -/
theorem bcast_col2 (h1 : S8732.BroadcastsInDim S1x8732 (![1] : Fin 1 → Fin S1x8732.rank))
    (h2 : S1x8732.BroadcastsInDim S2048x8732 (![0, 1] : Fin 2 → Fin S2048x8732.rank))
    (x : S8732.Idx → α) (o : Fin 2048) (d : Fin 8732) :
    broadcastInDim S2048x8732 ![0, 1] h2 (broadcastInDim S1x8732 ![1] h1 x) (ix2 o d) = x (ix1 d) := by
  refine (broadcastInDim_apply _ h2 _ (ix2 o d) (ix2 (0 : Fin 1) d) (fun a => match a with
    | ⟨0, _⟩ => by show 0 = if (1 : Nat) = 1 then 0 else o.val; rw [if_pos rfl]
    | ⟨1, _⟩ => by show d.val = if (8732 : Nat) = 1 then 0 else d.val; rw [if_neg (by decide)])).trans ?_
  exact broadcastInDim_apply _ h1 x (ix2 (0 : Fin 1) d) (ix1 d) (fun a => match a with
    | ⟨0, _⟩ => by show d.val = if (8732 : Nat) = 1 then 0 else d.val; rw [if_neg (by decide)])

/-- Corner pairs of the objects broadcast along the detections read, at (o, d, c), the entry (o, c). -/
theorem bcast_row3 (h1 : S2048x2.BroadcastsInDim S2048x1x2 (![0, 2] : Fin 2 → Fin S2048x1x2.rank))
    (h2 : S2048x1x2.BroadcastsInDim S2048x8732x2 (![0, 1, 2] : Fin 3 → Fin S2048x8732x2.rank))
    (x : S2048x2.Idx → α) (o : Fin 2048) (d : Fin 8732) (c : Fin 2) :
    broadcastInDim S2048x8732x2 ![0, 1, 2] h2 (broadcastInDim S2048x1x2 ![0, 2] h1 x) (ix3 o d c) = x (ix2 o c) := by
  refine (broadcastInDim_apply _ h2 _ (ix3 o d c) (ix3 o (0 : Fin 1) c) (fun a => match a with
    | ⟨0, _⟩ => by show o.val = if (2048 : Nat) = 1 then 0 else o.val; rw [if_neg (by decide)]
    | ⟨1, _⟩ => by show 0 = if (1 : Nat) = 1 then 0 else d.val; rw [if_pos rfl]
    | ⟨2, _⟩ => by show c.val = if (2 : Nat) = 1 then 0 else c.val; rw [if_neg (by decide)])).trans ?_
  exact broadcastInDim_apply _ h1 x (ix3 o (0 : Fin 1) c) (ix2 o c) (fun a => match a with
    | ⟨0, _⟩ => by show o.val = if (2048 : Nat) = 1 then 0 else o.val; rw [if_neg (by decide)]
    | ⟨1, _⟩ => by show c.val = if (2 : Nat) = 1 then 0 else c.val; rw [if_neg (by decide)])

/-- Corner pairs of the detections broadcast along the objects read, at (o, d, c), the entry (d, c). -/
theorem bcast_col3 (h1 : S8732x2.BroadcastsInDim S1x8732x2 (![1, 2] : Fin 2 → Fin S1x8732x2.rank))
    (h2 : S1x8732x2.BroadcastsInDim S2048x8732x2 (![0, 1, 2] : Fin 3 → Fin S2048x8732x2.rank))
    (x : S8732x2.Idx → α) (o : Fin 2048) (d : Fin 8732) (c : Fin 2) :
    broadcastInDim S2048x8732x2 ![0, 1, 2] h2 (broadcastInDim S1x8732x2 ![1, 2] h1 x) (ix3 o d c) = x (ix2 d c) := by
  refine (broadcastInDim_apply _ h2 _ (ix3 o d c) (ix3 (0 : Fin 1) d c) (fun a => match a with
    | ⟨0, _⟩ => by show 0 = if (1 : Nat) = 1 then 0 else o.val; rw [if_pos rfl]
    | ⟨1, _⟩ => by show d.val = if (8732 : Nat) = 1 then 0 else d.val; rw [if_neg (by decide)]
    | ⟨2, _⟩ => by show c.val = if (2 : Nat) = 1 then 0 else c.val; rw [if_neg (by decide)])).trans ?_
  exact broadcastInDim_apply _ h1 x (ix3 (0 : Fin 1) d c) (ix2 d c) (fun a => match a with
    | ⟨0, _⟩ => by show d.val = if (8732 : Nat) = 1 then 0 else d.val; rw [if_neg (by decide)]
    | ⟨1, _⟩ => by show c.val = if (2 : Nat) = 1 then 0 else c.val; rw [if_neg (by decide)])

/-- Column `k` of the object boxes, as a vector over the objects. -/
theorem col_B (k : Nat) (hk : k < 4) (hs : S2048x4.Slices ![0, k] S2048x1) (hc : S2048x1.ShapeCasts S2048)
    (x : S2048x4.Idx → α) (o : Fin 2048) :
    shapeCast S2048 (extractStridedSlice S2048x1 ![0, k] x hs) hc (ix1 o) = x (ix2 o (⟨k, hk⟩ : Fin 4)) := by
  refine (shapeCast_apply _ hc (ix1 o) (ix2 o (0 : Fin 1)) ?_).trans ?_
  · rw [Shape.rowMajor_val_two, Shape.rowMajor_val_one]
    show o.val * 1 + 0 = o.val
    omega
  · exact extractStridedSlice_apply ![0, k] x hs (ix2 o (0 : Fin 1)) _ (fun a => match a with
      | ⟨0, _⟩ => by show o.val = 0 + o.val; omega
      | ⟨1, _⟩ => by show k = k + 0; rfl)

/-- Column `k` of the detection boxes, as a vector over the detections. -/
theorem col_D (k : Nat) (hk : k < 4) (hs : S8732x4.Slices ![0, k] S8732x1) (hc : S8732x1.ShapeCasts S8732)
    (x : S8732x4.Idx → α) (d : Fin 8732) :
    shapeCast S8732 (extractStridedSlice S8732x1 ![0, k] x hs) hc (ix1 d) = x (ix2 d (⟨k, hk⟩ : Fin 4)) := by
  refine (shapeCast_apply _ hc (ix1 d) (ix2 d (0 : Fin 1)) ?_).trans ?_
  · rw [Shape.rowMajor_val_two, Shape.rowMajor_val_one]
    show d.val * 1 + 0 = d.val
    omega
  · exact extractStridedSlice_apply ![0, k] x hs (ix2 d (0 : Fin 1)) _ (fun a => match a with
      | ⟨0, _⟩ => by show d.val = 0 + d.val; omega
      | ⟨1, _⟩ => by show k = k + 0; rfl)

/-- Component `k` of an array of pairs over (o, d), as an array over (o, d). -/
theorem comp3 (k : Nat) (hk : k < 2) (hs : S2048x8732x2.Slices ![0, 0, k] S2048x8732x1)
    (hc : S2048x8732x1.ShapeCasts S2048x8732) (x : S2048x8732x2.Idx → α) (o : Fin 2048) (d : Fin 8732) :
    shapeCast S2048x8732 (extractStridedSlice S2048x8732x1 ![0, 0, k] x hs) hc (ix2 o d)
      = x (ix3 o d (⟨k, hk⟩ : Fin 2)) := by
  refine (shapeCast_apply _ hc (ix2 o d) (ix3 o d (0 : Fin 1)) ?_).trans ?_
  · rw [Shape.rowMajor_val_three, Shape.rowMajor_val_two]
    show (o.val * 8732 + d.val) * 1 + 0 = o.val * 8732 + d.val
    omega
  · exact extractStridedSlice_apply ![0, 0, k] x hs (ix3 o d (0 : Fin 1)) _ (fun a => match a with
      | ⟨0, _⟩ => by show o.val = 0 + o.val; omega
      | ⟨1, _⟩ => by show d.val = 0 + d.val; omega
      | ⟨2, _⟩ => by show k = k + 0; rfl)

/-- The low corner pair of the object boxes. -/
theorem pair_B0 (hs : S2048x4.Slices ![0, 0] S2048x2) (x : S2048x4.Idx → α) (o : Fin 2048) (c : Fin 2) :
    extractStridedSlice S2048x2 ![0, 0] x hs (ix2 o c)
      = x (ix2 o (⟨c.val, by have := c.isLt; omega⟩ : Fin 4)) :=
  extractStridedSlice_apply ![0, 0] x hs (ix2 o c) _ (fun a => match a with
    | ⟨0, _⟩ => by show o.val = 0 + o.val; omega
    | ⟨1, _⟩ => by show c.val = 0 + c.val; omega)

/-- The high corner pair of the object boxes. -/
theorem pair_B2 (hs : S2048x4.Slices ![0, 2] S2048x2) (x : S2048x4.Idx → α) (o : Fin 2048) (c : Fin 2) :
    extractStridedSlice S2048x2 ![0, 2] x hs (ix2 o c)
      = x (ix2 o (⟨2 + c.val, by have := c.isLt; omega⟩ : Fin 4)) :=
  extractStridedSlice_apply ![0, 2] x hs (ix2 o c) _ (fun a => match a with
    | ⟨0, _⟩ => by show o.val = 0 + o.val; omega
    | ⟨1, _⟩ => by show 2 + c.val = 2 + c.val; rfl)

/-- The low corner pair of the detection boxes. -/
theorem pair_D0 (hs : S8732x4.Slices ![0, 0] S8732x2) (x : S8732x4.Idx → α) (d : Fin 8732) (c : Fin 2) :
    extractStridedSlice S8732x2 ![0, 0] x hs (ix2 d c)
      = x (ix2 d (⟨c.val, by have := c.isLt; omega⟩ : Fin 4)) :=
  extractStridedSlice_apply ![0, 0] x hs (ix2 d c) _ (fun a => match a with
    | ⟨0, _⟩ => by show d.val = 0 + d.val; omega
    | ⟨1, _⟩ => by show c.val = 0 + c.val; omega)

/-- The high corner pair of the detection boxes. -/
theorem pair_D2 (hs : S8732x4.Slices ![0, 2] S8732x2) (x : S8732x4.Idx → α) (d : Fin 8732) (c : Fin 2) :
    extractStridedSlice S8732x2 ![0, 2] x hs (ix2 d c)
      = x (ix2 d (⟨2 + c.val, by have := c.isLt; omega⟩ : Fin 4)) :=
  extractStridedSlice_apply ![0, 2] x hs (ix2 d c) _ (fun a => match a with
    | ⟨0, _⟩ => by show d.val = 0 + d.val; omega
    | ⟨1, _⟩ => by show 2 + c.val = 2 + c.val; rfl)

end Layout

/-! ### Pointwise operations on words, read at an index -/

section Words
variable {s : Shape} {w : Nat}

theorem ori_at (a b : IVec s w) (i : s.Idx) : ori a b i = IntOp.ori (a i) (b i) := rfl
theorem noti_at (a : IVec s w) (i : s.Idx) : noti a i = ~~~(a i) := rfl
theorem cmpi_at (p : CmpIPredicate) (a b : IVec s w) (i : s.Idx) : cmpi p a b i = IntOp.cmpi p (a i) (b i) := rfl
theorem cmpf_at {φ : FTy} (p : CmpFPredicate) (a b : FVec Ideal s φ) (i : s.Idx) :
    cmpf p a b i = Ideal.cmp p (a i) (b i) := rfl

end Words

/-! ### Three facts about single entries -/

/-- An extended real whose absolute value is below `+∞` is a real number. -/
theorem real_of_abs_lt (x : EReal)
    (h : Ideal.cmp .olt (max x (-x)) (Ideal.ofBits .f32 0x7F800000#32) = 1#1) : ∃ r : ℝ, x = (r : EReal) := by
  have hinf : Ideal.ofBits .f32 0x7F800000#32 = ⊤ := by simp [Ideal.ofBits, Ideal.ieee]
  rw [hinf] at h
  induction x using EReal.rec with
  | bot => simp [Ideal.cmp] at h
  | coe r => exact ⟨r, rfl⟩
  | top => simp [Ideal.cmp] at h

/-- A word that is at least 0 as a signed integer is not the word of all ones. -/
theorem ne_allOnes_of_sge (x : BitVec 32) (h : IntOp.cmpi .sge x 0#32 = 1#1) : x ≠ 4294967295#32 := by
  intro e
  rw [e] at h
  exact absurd h (by decide)

/-- For equal labels, "labels differ or the value is not zero" says the value is not zero. -/
theorem ne_zero_of_or (l l' : BitVec 32) (u : EReal) (e : l = l')
    (h : IntOp.ori (~~~(IntOp.cmpi .eq l l')) (Ideal.cmp .une u (Ideal.ofBits .f32 0x00000000#32)) = 1#1) :
    u ≠ 0 := by
  subst e
  have h1 : IntOp.cmpi .eq l l = 1#1 := IntOp.cmpi_eq.2 rfl
  rw [h1, Ideal.ofBits_zero_f32] at h
  rcases IntOp.ori_eq_one.1 h with h | h
  · exact absurd h (by decide)
  · intro e0
    rw [e0] at h
    simp [Ideal.cmp] at h

/-! ### The precondition, read -/

theorem domain_of_pre [Cert.Pre_finite_inputs.Facts]
    (a0 : FVec Ideal Cert.Pre_finite_inputs.S8732x4 .f32) (a1 : FVec Ideal Cert.Pre_finite_inputs.S8732 .f32)
    (a2 : IVec Cert.Pre_finite_inputs.S8732 32)
    (a3 : FVec Ideal Cert.Pre_finite_inputs.S2048x4 .f32) (a4 : IVec Cert.Pre_finite_inputs.S2048 32)
    (h : Cert.Pre_finite_inputs.fn (F := Ideal) a0 a1 a2 a3 a4 = fun _ => 1#1) :
    Domain (fun o c => a3 (ValueIdx.ix2 o c)) (fun d c => a0 (ValueIdx.ix2 d c))
      (fun o => a4 (ValueIdx.ix1 o)) (fun d => a2 (ValueIdx.ix1 d)) := by
  have h0 := congrFun h ValueIdx.ix0
  dsimp only [Cert.Pre_finite_inputs.fn, fn_part1, fn_part2, fn_part3] at h0
  obtain ⟨h1234, h5⟩ := IntOp.andi_eq_one.1 h0
  obtain ⟨h123, h4⟩ := IntOp.andi_eq_one.1 h1234
  obtain ⟨h12, h3⟩ := IntOp.andi_eq_one.1 h123
  obtain ⟨h1, _⟩ := IntOp.andi_eq_one.1 h12
  have e1 := fun i => Host.reduce_andi_all _ _ _ _ _ h1 i
  have e3 := fun i => Host.reduce_andi_all _ _ _ _ _ h3 i
  have e4 := fun i => Host.reduce_andi_all _ _ _ _ _ h4 i
  have e5 := fun i => Host.reduce_andi_all _ _ _ _ _ h5 i
  clear h0 h1234 h123 h12 h1 h3 h4 h5 h
  refine ⟨fun o c => ?_, fun d c => ?_, fun o => ?_, fun o d hl => ?_⟩
  · exact real_of_abs_lt _ (e3 (ix2 o c))
  · exact real_of_abs_lt _ (e1 (ix2 d c))
  · exact ne_allOnes_of_sge _ (IntOp.andi_eq_one.1 (e4 (ix1 o))).1
  · have key := e5 (ix2 o d)
    clear e1 e3 e4 e5
    -- the pointwise operations and the two components of the clipped extents
    simp only [ori_at, noti_at, cmpi_at, cmpf_at, subf_apply, addf_apply, mulf_apply, maximumf_apply, minimumf_apply,
      comp3 0 (by decide), comp3 1 (by decide)] at key
    -- the labels, then the two areas, broadcast over the pairs
    rw [bcast_row2, bcast_col2, bcast_row2, bcast_col2] at key
    -- the zeros
    rw [bcast_scalar, bcast_scalar, bcast_scalar] at key
    -- the corner pairs broadcast over the pairs
    rw [bcast_row3, bcast_row3, bcast_row3, bcast_row3, bcast_col3, bcast_col3, bcast_col3, bcast_col3] at key
    rw [pair_B2, pair_B2, pair_B0, pair_B0, pair_D2, pair_D2, pair_D0, pair_D0] at key
    -- the areas
    simp only [mulf_apply, subf_apply, constant_apply] at key
    rw [col_B 2 (by decide), col_B 0 (by decide), col_B 3 (by decide), col_B 1 (by decide),
      col_D 2 (by decide), col_D 0 (by decide), col_D 3 (by decide), col_D 1 (by decide)] at key
    -- equal labels leave "the union is not zero"; the clip at zero is commutative
    have hu := ne_zero_of_or _ _ _ hl key
    rw [Ideal.ofBits_zero_f32, max_comm (0 : EReal), max_comm (0 : EReal)] at hu
    exact hu

end Cert.Iou

end
-- ==== Proof.RefValue.lean ====
/-
  The reference program computes the loss of the specification.

  Read at a pair (object, detection) the program's overlap is the intersection over the union of
  the two boxes, the clip at zero being `max 0 x` where the specification writes `max x 0`.  Masked
  by "the labels agree" (`-∞` elsewhere) and maximised along the detections from `-∞`, it is the best
  overlap of the object.  The "or" along the detections of "the labels agree" is 1 exactly when some
  detection carries the object's label.  The 2048 such bits, widened to 32-bit words and added up,
  make a word whose value is the number of set bits (at most 2048, far from wrapping), and its
  conversion to a float is that number as a real.  An object whose bit is set contributes
  `1 - best`, the others 0; the result is the contributions' sum over the count.
-/
import proofs.«118736_j31619549233713_2_alg».proof.Proof.Spec
import proofs.«118736_j31619549233713_2_alg».proof.Proof.RefReadP
import proofs.«118736_j31619549233713_2_alg».proof.Proof.PreDomain
import Idealize.ShloMosaic.Lib.ValueIdx
import Idealize.ShloMosaic.Lib.Pipeline.Value
import Idealize.ShloMosaic.PureOps.Ideal.Laws

noncomputable section

open scoped BigOperators Classical

namespace Cert.Iou

open Cert.ReferenceIdeal Cert.ReferenceIdeal.ReadP Idealize.ShloMosaic Idealize.ShloMosaic.ValueIdx

/-! ### The four inputs as the specification reads them -/

/-- The object boxes by (object, coordinate). -/
abbrev boxesOf (x3 : FVec Ideal S2048x4 .f32) : Fin 2048 → Fin 4 → EReal := fun o c => x3 (ix2 o c)
/-- The detection boxes by (detection, coordinate). -/
abbrev detsOf (x0 : FVec Ideal S8732x4 .f32) : Fin 8732 → Fin 4 → EReal := fun d c => x0 (ix2 d c)
/-- The object labels. -/
abbrev labelsOf (x4 : IVec S2048 32) : Fin 2048 → BitVec 32 := fun o => x4 (ix1 o)
/-- The detection labels. -/
abbrev detLabelsOf (x2 : IVec S8732 32) : Fin 8732 → BitVec 32 := fun d => x2 (ix1 d)

/-! ### Constants -/

theorem ofBits_one' : Ideal.ofBits .f32 0x3F800000#32 = 1 := by
  simp [Ideal.ofBits, Ideal.ieee, -EReal.coe_mul]; norm_num

theorem ofBits_ninf' : Ideal.ofBits .f32 0xFF800000#32 = ⊥ := by
  simp [Ideal.ofBits, Ideal.ieee]

/-- The host's quotient at an index is the quotient of the entries. -/
theorem hdivf_at {s : Shape} {φ : FTy} (a b : FVec Ideal s φ) (i : s.Idx) :
    Host.divf a b i = Ideal.div (a i) (b i) := rfl

/-! ### The overlap of a pair -/

theorem iou_at (x0 : FVec Ideal S8732x4 .f32) (x3 : FVec Ideal S2048x4 .f32) (o : Fin 2048) (d : Fin 8732) :
    val_main_v49 (F := Ideal) x0 x3 (ix2 o d) = iou (boxesOf x3 o) (detsOf x0 d) := by
  unfold val_main_v49 val_main_v48 val_main_v47 val_main_v46 val_main_v45 val_main_v44 val_main_v43 val_main_v42 val_main_v41 val_main_v40 val_main_v39 val_main_v38 val_main_v37 val_main_v36 val_main_v35 val_main_v34 val_main_v33 val_main_v32 val_main_v31 val_main_v30 val_main_v29 val_main_v28 val_main_v27 val_main_v26 val_main_v25 val_main_v24 val_main_v23 val_main_v22 val_main_v21 val_main_v20 val_main_v19 val_main_v18 val_main_v17 val_main_v16 val_main_v15 val_main_call0_v1 val_main_call0_v0 val_main_cst val_main_v14 val_main_v13 val_main_v12 val_main_v11 val_main_v10 val_main_v9 val_main_v8 val_main_v7 val_main_v6 val_main_v5 val_main_v4 val_main_v3 val_main_v2 val_main_v1 val_main_v0
  simp only [hdivf_at, subf_apply, addf_apply, mulf_apply, maximumf_apply, minimumf_apply, id_eq,
    comp3 0 (by decide), comp3 1 (by decide)]
  rw [bcast_row2, bcast_col2]
  rw [bcast_scalar, bcast_scalar]
  rw [bcast_row3, bcast_row3, bcast_row3, bcast_row3, bcast_col3, bcast_col3, bcast_col3, bcast_col3]
  rw [pair_B2, pair_B2, pair_B0, pair_B0, pair_D2, pair_D2, pair_D0, pair_D0]
  simp only [mulf_apply, subf_apply, constant_apply]
  rw [col_B 2 (by decide), col_B 0 (by decide), col_B 3 (by decide), col_B 1 (by decide),
    col_D 2 (by decide), col_D 0 (by decide), col_D 3 (by decide), col_D 1 (by decide)]
  rw [Ideal.ofBits_zero_f32, max_comm (0 : EReal), max_comm (0 : EReal)]
  rfl

/-! ### The masked overlap of a pair -/

/-- "The labels agree" at a pair. -/
theorem same_at (x2 : IVec S8732 32) (x4 : IVec S2048 32) (o : Fin 2048) (d : Fin 8732) :
    val_main_v54 (F := Ideal) x2 x4 (ix2 o d) = IntOp.cmpi .eq (x4 (ix1 o)) (x2 (ix1 d)) := by
  unfold val_main_v54 val_main_v53 val_main_v52 val_main_v51 val_main_v50
  rw [cmpi_at, bcast_row2, bcast_col2]

theorem masked_at (x0 : FVec Ideal S8732x4 .f32) (x2 : IVec S8732 32) (x3 : FVec Ideal S2048x4 .f32)
    (x4 : IVec S2048 32) (o : Fin 2048) (d : Fin 8732) :
    val_main_v55 (F := Ideal) x0 x2 x3 x4 (ix2 o d)
      = masked (boxesOf x3) (detsOf x0) (labelsOf x4) (detLabelsOf x2) o d := by
  have hbot : val_main_call1_v1 (F := Ideal) (ix2 o d) = ⊥ := by
    unfold val_main_call1_v1 val_main_call1_v0 val_main_cst_0
    rw [id_eq, bcast_scalar, constant_apply, ofBits_ninf']
  rw [val_main_v55_apply, same_at, hbot, iou_at]
  unfold masked
  by_cases e : x4 (ix1 o) = x2 (ix1 d)
  · rw [IntOp.cmpi_eq.2 e, select_one, if_pos e]
  · have hz : IntOp.cmpi .eq (x4 (ix1 o)) (x2 (ix1 d)) = 0#1 :=
      eq_zero_of_ne_one (fun h => e (IntOp.cmpi_eq.1 h))
    rw [hz, select_zero, if_neg e]

/-! ### Along the detections: the best overlap, and "some detection carries the label" -/

theorem reduces_pairs : S2048x8732.Reduces [1] S2048 := by decide

/-- The pair over object `o` whose detection is `d`. -/
theorem lift_pair (o : Fin 2048) (d : Fin 8732) : reduces_pairs.lift (ix1 o) d = ix2 o d := by
  funext c; apply Fin.ext
  match c with
  | ⟨0, _⟩ => rfl
  | ⟨1, _⟩ => rfl

theorem best_at (x0 : FVec Ideal S8732x4 .f32) (x2 : IVec S8732 32) (x3 : FVec Ideal S2048x4 .f32)
    (x4 : IVec S2048 32) (o : Fin 2048) :
    val_main_v56 (F := Ideal) x0 x2 x3 x4 (ix1 o)
      = best (boxesOf x3) (detsOf x0) (labelsOf x4) (detLabelsOf x2) o := by
  unfold val_main_v56
  rw [Host.reduce_eq_fold_single FloatOps.maximumf _ _ Gen.reducesTo_S2048x8732_S2048_d1 reduces_pairs Gen.h_S_ (ix1 o)]
  show Finset.univ.fold max (Ideal.ofBits .f32 0xFF800000#32)
    (fun d : Fin 8732 => val_main_v55 (F := Ideal) x0 x2 x3 x4 (reduces_pairs.lift (ix1 o) d)) = _
  rw [ofBits_ninf']
  unfold best
  refine congrArg (Finset.univ.fold max ⊥) (funext fun d => ?_)
  rw [lift_pair, masked_at]

instance ori_comm : Std.Commutative (IntOp.ori (w := 1)) := ⟨BitVec.or_comm⟩
instance ori_assoc : Std.Associative (IntOp.ori (w := 1)) := ⟨BitVec.or_assoc⟩

/-- An "or" of bits from 0 is 1 exactly when one of the bits is 1. -/
theorem fold_ori_eq_one {ι : Type} [DecidableEq ι] (g : ι → BitVec 1) (s : Finset ι) :
    s.fold IntOp.ori 0#1 g = 1#1 ↔ ∃ d ∈ s, g d = 1#1 := by
  induction s using Finset.induction_on with
  | empty => simp
  | insert a s ha ih =>
    rw [Finset.fold_insert ha, IntOp.ori_eq_one, ih]
    constructor
    · rintro (h | ⟨d, hd, h⟩)
      · exact ⟨a, Finset.mem_insert_self a s, h⟩
      · exact ⟨d, Finset.mem_insert_of_mem hd, h⟩
    · rintro ⟨d, hd, h⟩
      rcases Finset.mem_insert.1 hd with rfl | hd
      · exact Or.inl h
      · exact Or.inr ⟨d, hd, h⟩

theorem has_at (x2 : IVec S8732 32) (x4 : IVec S2048 32) (o : Fin 2048) :
    val_main_v57 (F := Ideal) x2 x4 (ix1 o) = 1#1 ↔ matched (labelsOf x4) (detLabelsOf x2) o := by
  unfold val_main_v57
  rw [Host.reduce_eq_fold_single IntOp.ori _ _ Gen.reducesTo_S2048x8732_S2048_d1 reduces_pairs Gen.h_S_ (ix1 o)]
  show Finset.univ.fold IntOp.ori 0#1
    (fun d : Fin 8732 => val_main_v54 (F := Ideal) x2 x4 (reduces_pairs.lift (ix1 o) d)) = 1#1 ↔ _
  rw [fold_ori_eq_one]
  unfold matched
  constructor
  · rintro ⟨d, _, h⟩
    have h' : val_main_v54 (F := Ideal) x2 x4 (reduces_pairs.lift (ix1 o) d) = 1#1 := h
    rw [lift_pair, same_at] at h'
    exact ⟨d, IntOp.cmpi_eq.1 h'⟩
  · rintro ⟨d, e⟩
    refine ⟨d, Finset.mem_univ d, ?_⟩
    show val_main_v54 (F := Ideal) x2 x4 (reduces_pairs.lift (ix1 o) d) = 1#1
    rw [lift_pair, same_at]
    exact IntOp.cmpi_eq.2 e

/-! ### The number of objects that have a detection of their label -/

/-- A vector over the objects is indexed by the object. -/
def idxEquiv1 {n : Nat} : (⟨1, ![n]⟩ : Shape).Idx ≃ Fin n where
  toFun i := i 0
  invFun o := ix1 o
  left_inv i := (eq_ix1 i).symm
  right_inv _ := rfl

/-- Adding up 0/1 words, at most 2048 of them, counts the ones: the sum cannot wrap. -/
theorem fold_addi_flags {ι : Type} [DecidableEq ι] (p : ι → Prop) (f : ι → BitVec 32)
    (hf : ∀ o, f o = if p o then 1#32 else 0#32) (s : Finset ι) (hs : s.card ≤ 2048) :
    (s.fold IntOp.addi 0#32 f).toNat = (s.filter p).card := by
  induction s using Finset.induction_on with
  | empty => simp
  | insert a s ha ih =>
    rw [Finset.card_insert_of_notMem ha] at hs
    have ih' := ih (by omega)
    have hb : (s.filter p).card ≤ 2047 := le_trans (Finset.card_filter_le _ _) (by omega)
    rw [Finset.fold_insert ha, Finset.filter_insert]
    show (f a + s.fold IntOp.addi 0#32 f).toNat = _
    rw [BitVec.toNat_add, ih', hf a]
    by_cases hp : p a
    · have hna : a ∉ s.filter p := fun h => ha (Finset.mem_filter.1 h).1
      rw [if_pos hp, if_pos hp, Finset.card_insert_of_notMem hna]
      have e1 : (1#32 : BitVec 32).toNat = 1 := rfl
      rw [e1, Nat.mod_eq_of_lt (by omega)]
      omega
    · rw [if_neg hp, if_neg hp]
      have e0 : (0#32 : BitVec 32).toNat = 0 := rfl
      rw [e0, Nat.mod_eq_of_lt (by omega)]
      omega

/-- The widened bit of an object. -/
theorem flag_at (x2 : IVec S8732 32) (x4 : IVec S2048 32) (j : S2048.Idx) :
    val_main_v58 (F := Ideal) x2 x4 j
      = if matched (labelsOf x4) (detLabelsOf x2) (j 0) then 1#32 else 0#32 := by
  obtain ⟨o, rfl⟩ : ∃ o : Fin 2048, j = ix1 o := ⟨j 0, eq_ix1 j⟩
  show val_main_v58 (F := Ideal) x2 x4 (ix1 o)
    = if matched (labelsOf x4) (detLabelsOf x2) o then 1#32 else 0#32
  rw [val_main_v58_apply]
  by_cases hm : matched (labelsOf x4) (detLabelsOf x2) o
  · rw [(has_at x2 x4 o).2 hm, if_pos hm]; rfl
  · rw [eq_zero_of_ne_one (fun h => hm ((has_at x2 x4 o).1 h)), if_neg hm]; rfl

theorem count_at (x2 : IVec S8732 32) (x4 : IVec S2048 32) (i : S_.Idx) :
    val_main_v60 (F := Ideal) x2 x4 i
      = (((Finset.univ.filter (matched (labelsOf x4) (detLabelsOf x2))).card : ℝ) : EReal) := by
  have hn : (val_main_v59 (F := Ideal) x2 x4 i).toNat
      = (Finset.univ.filter (fun j : S2048.Idx => matched (labelsOf x4) (detLabelsOf x2) (j 0))).card := by
    unfold val_main_v59
    rw [Host.reduce_eq_fold IntOp.addi _ _ Gen.reducesTo_S2048_S_d0 Gen.h_S_ i,
      Finset.filter_true_of_mem (fun j _ => Subsingleton.elim _ _)]
    show (Finset.univ.fold IntOp.addi 0#32 (val_main_v58 (F := Ideal) x2 x4)).toNat = _
    refine fold_addi_flags _ _ (fun j => flag_at x2 x4 j) Finset.univ ?_
    rw [Finset.card_univ, Fintype.card_congr (idxEquiv1 (n := 2048)), Fintype.card_fin]
  have hcard : (Finset.univ.filter (fun j : S2048.Idx => matched (labelsOf x4) (detLabelsOf x2) (j 0))).card
      = (Finset.univ.filter (matched (labelsOf x4) (detLabelsOf x2))).card :=
    Finset.card_equiv (idxEquiv1 (n := 2048)) (fun j => by
      rw [Finset.mem_filter, Finset.mem_filter]
      simp only [Finset.mem_univ, true_and]
      rfl)
  rw [hcard] at hn
  have hle : (Finset.univ.filter (matched (labelsOf x4) (detLabelsOf x2))).card ≤ 2048 :=
    le_trans (Finset.card_filter_le _ _) (by simp)
  have hint : (val_main_v59 (F := Ideal) x2 x4 i).toInt
      = ((Finset.univ.filter (matched (labelsOf x4) (detLabelsOf x2))).card : ℤ) := by
    have e := BitVec.toInt_eq_toNat_cond (val_main_v59 (F := Ideal) x2 x4 i)
    rw [hn] at e
    rw [e, if_pos (by omega)]
  rw [val_main_v60_apply]
  show (((val_main_v59 (F := Ideal) x2 x4 i).toInt : ℝ) : EReal) = _
  rw [hint, Int.cast_natCast]

/-! ### An object's contribution, and the loss -/

theorem term_at (x0 : FVec Ideal S8732x4 .f32) (x2 : IVec S8732 32) (x3 : FVec Ideal S2048x4 .f32)
    (x4 : IVec S2048 32) (o : Fin 2048) :
    val_main_v63 (F := Ideal) x0 x2 x3 x4 (ix1 o)
      = term (boxesOf x3) (detsOf x0) (labelsOf x4) (detLabelsOf x2) o := by
  have h1 : val_main_v61 (F := Ideal) (ix1 o) = 1 := by
    unfold val_main_v61 val_main_cst_3
    rw [bcast_scalar, constant_apply, ofBits_one']
  have h0 : val_main_call2_v1 (F := Ideal) (ix1 o) = 0 := by
    unfold val_main_call2_v1 val_main_call2_v0 val_main_cst_4
    rw [id_eq, bcast_scalar, constant_apply, Ideal.ofBits_zero_f32]
  rw [val_main_v63_apply, val_main_v62_apply, h1, h0, best_at]
  unfold term
  by_cases hm : matched (labelsOf x4) (detLabelsOf x2) o
  · rw [(has_at x2 x4 o).2 hm, select_one, if_pos hm]; rfl
  · rw [eq_zero_of_ne_one (fun h => hm ((has_at x2 x4 o).1 h)), select_zero, if_neg hm]

theorem ref_value (x0 : FVec Ideal Cert.ReferenceIdeal.S8732x4 .f32) (x2 : IVec Cert.ReferenceIdeal.S8732 32)
    (x3 : FVec Ideal Cert.ReferenceIdeal.S2048x4 .f32) (x4 : IVec Cert.ReferenceIdeal.S2048 32) :
    Cert.ReferenceIdeal.ReadP.val_main_v65 (F := Ideal) x0 x2 x3 x4
      = fun _ => result (fun o c => x3 (ix2 o c)) (fun d c => x0 (ix2 d c)) (fun o => x4 (ix1 o)) (fun d => x2 (ix1 d)) := by
  funext i
  have hsum : (∑ j : S2048.Idx, val_main_v63 (F := Ideal) x0 x2 x3 x4 j)
      = ∑ o : Fin 2048, term (boxesOf x3) (detsOf x0) (labelsOf x4) (detLabelsOf x2) o := by
    refine Fintype.sum_equiv idxEquiv1 _ _ (fun j => ?_)
    conv_lhs => rw [eq_ix1 j]
    exact term_at x0 x2 x3 x4 (j 0)
  have h0 : val_main_cst_5 (F := Ideal) (Shape.Idx.first Gen.h_S_) = 0 := by
    unfold val_main_cst_5
    rw [constant_apply, Ideal.ofBits_zero_f32]
  rw [val_main_v65_apply, val_main_v64_apply, count_at, h0, hsum, zero_add]
  rfl

end Cert.Iou

end
-- ==== Proof.Arrange.lean ====
/-
  The two arrangements of the overlap loss agree.

  The tiled arrangement scans 8832 columns: the 8732 detections followed by 100 filler columns.
  A filler column carries the label `-1`, which no object carries, so its masked overlap is
  `-∞` and it never raises a maximum.  A maximum of maxima over three tiles of 2944 columns is
  therefore the maximum over the 8732 detections.  An object whose label some detection carries
  has, at that detection, an overlap that is a real number (all coordinates are real and the
  union is not zero), so its best overlap is above `-∞`; an object whose label no detection
  carries has every masked overlap equal to `-∞`.  Hence "the running maximum is above `-∞`"
  and "some detection carries the label" are the same test, and the two losses are the same
  quotient.
-/
import proofs.«118736_j31619549233713_2_alg».proof.Proof.Spec

noncomputable section

open scoped BigOperators Classical

namespace Cert.Iou

open Idealize.ShloMosaic

variable {B : Fin 2048 → Fin 4 → EReal} {D : Fin 8732 → Fin 4 → EReal}
  {L : Fin 2048 → BitVec 32} {DL : Fin 8732 → BitVec 32}

/-! ### Columns of the padded scan -/

/-- A filler column carries the label `-1`, which no object carries: its masked overlap is `-∞`. -/
theorem maskedP_filler (h : Domain B D L DL) (o : Fin 2048) (d : Fin 8832) (hd : ¬ d.val < 8732) :
    maskedP B D L DL o d = ⊥ := by
  unfold maskedP padL
  rw [dif_neg hd, if_neg (h.label o)]

/-- A column below 8732 is a detection: same box, same label, same masked overlap. -/
theorem maskedP_detection (o : Fin 2048) (d : Fin 8832) (d' : Fin 8732) (e : d.val = d'.val) :
    maskedP B D L DL o d = masked B D L DL o d' := by
  have hd : d.val < 8732 := e ▸ d'.isLt
  have e' : (⟨d.val, hd⟩ : Fin 8732) = d' := Fin.ext e
  unfold maskedP masked padL padD
  rw [dif_pos hd, dif_pos hd, e']

/-! ### A maximum is bounded exactly when every entry is -/

theorem tileMax_le_iff (o : Fin 2048) (j : Fin 3) (c : EReal) :
    tileMax B D L DL o j ≤ c ↔ ∀ k : Fin 2944, maskedP B D L DL o (col j k) ≤ c := by
  unfold tileMax
  rw [Finset.fold_max_le]
  simp

theorem best_le_iff (o : Fin 2048) (c : EReal) :
    best B D L DL o ≤ c ↔ ∀ d : Fin 8732, masked B D L DL o d ≤ c := by
  unfold best
  rw [Finset.fold_max_le]
  simp

theorem run_le_iff (o : Fin 2048) (c : EReal) :
    run B D L DL o 2 ≤ c ↔ ∀ j : Fin 3, tileMax B D L DL o j ≤ c := by
  have e : run B D L DL o 2
      = max (max (max ⊥ (tileMax B D L DL o 0)) (tileMax B D L DL o 1)) (tileMax B D L DL o 2) := by
    simp only [run]
  rw [e, max_le_iff, max_le_iff, max_le_iff]
  constructor
  · rintro ⟨⟨⟨_, h0⟩, h1⟩, h2⟩ j
    fin_cases j
    · exact h0
    · exact h1
    · exact h2
  · intro h
    exact ⟨⟨⟨bot_le, h 0⟩, h 1⟩, h 2⟩

/-- Every detection is column `d % 2944` of tile `d / 2944`; every other column is a filler. -/
theorem cols_le_iff (h : Domain B D L DL) (o : Fin 2048) (c : EReal) :
    (∀ (j : Fin 3) (k : Fin 2944), maskedP B D L DL o (col j k) ≤ c)
      ↔ ∀ d : Fin 8732, masked B D L DL o d ≤ c := by
  constructor
  · intro H d
    have hd := d.isLt
    have hj : d.val / 2944 < 3 := by omega
    have hk : d.val % 2944 < 2944 := Nat.mod_lt _ (by norm_num)
    have hc : (col ⟨d.val / 2944, hj⟩ ⟨d.val % 2944, hk⟩).val = d.val := by
      show d.val / 2944 * 2944 + d.val % 2944 = d.val
      omega
    rw [← maskedP_detection o _ d hc]
    exact H _ _
  · intro H j k
    by_cases hd : (col j k).val < 8732
    · rw [maskedP_detection o (col j k) ⟨(col j k).val, hd⟩ rfl]
      exact H _
    · rw [maskedP_filler h o _ hd]
      exact bot_le

/-- The running maximum over the three tiles is the best overlap over the detections. -/
theorem run_eq_best (h : Domain B D L DL) (o : Fin 2048) :
    run B D L DL o 2 = best B D L DL o := by
  apply eq_of_forall_ge_iff
  intro c
  rw [run_le_iff, best_le_iff, ← cols_le_iff h o c]
  constructor
  · intro H j k
    exact (tileMax_le_iff o j c).1 (H j) k
  · intro H j
    exact (tileMax_le_iff o j c).2 (H j)

/-! ### The overlap of real boxes with a nonzero union is a real number -/

theorem coe_max' (x y : ℝ) : ((max x y : ℝ) : EReal) = max (x : EReal) (y : EReal) :=
  EReal.coe_strictMono.monotone.map_max

theorem coe_min' (x y : ℝ) : ((min x y : ℝ) : EReal) = min (x : EReal) (y : EReal) :=
  EReal.coe_strictMono.monotone.map_min

theorem inter_real (rb rd : Fin 4 → ℝ) :
    ∃ r : ℝ, inter (fun c => (rb c : EReal)) (fun c => (rd c : EReal)) = (r : EReal) := by
  refine ⟨max (min (rb 2) (rd 2) - max (rb 0) (rd 0)) 0
      * max (min (rb 3) (rd 3) - max (rb 1) (rd 1)) 0, ?_⟩
  unfold inter
  simp only [EReal.coe_mul, coe_max', coe_min', EReal.coe_sub, EReal.coe_zero]

theorem area_real (rb : Fin 4 → ℝ) :
    ∃ r : ℝ, area (fun c => (rb c : EReal)) = (r : EReal) := by
  refine ⟨(rb 2 - rb 0) * (rb 3 - rb 1), ?_⟩
  unfold area
  simp only [EReal.coe_mul, EReal.coe_sub]

theorem union_real (rb rd : Fin 4 → ℝ) :
    ∃ r : ℝ, union (fun c => (rb c : EReal)) (fun c => (rd c : EReal)) = (r : EReal) := by
  obtain ⟨i, hi⟩ := inter_real rb rd
  obtain ⟨a, ha⟩ := area_real rb
  obtain ⟨a', ha'⟩ := area_real rd
  refine ⟨a + a' - i, ?_⟩
  unfold union
  rw [hi, ha, ha', EReal.coe_sub, EReal.coe_add]

theorem iou_real (rb rd : Fin 4 → ℝ)
    (hu : union (fun c => (rb c : EReal)) (fun c => (rd c : EReal)) ≠ 0) :
    ∃ r : ℝ, iou (fun c => (rb c : EReal)) (fun c => (rd c : EReal)) = (r : EReal) := by
  obtain ⟨i, hi⟩ := inter_real rb rd
  obtain ⟨u, hu'⟩ := union_real rb rd
  rw [hu'] at hu
  have hu0 : u ≠ 0 := by
    intro e
    apply hu
    rw [e, EReal.coe_zero]
  refine ⟨i * (1 / u), ?_⟩
  unfold iou
  rw [hi, hu', Ideal.div_coe hu0, EReal.coe_mul]

/-- At a detection of its own label an object's masked overlap is a real number, above `-∞`. -/
theorem bot_lt_masked (h : Domain B D L DL) (o : Fin 2048) (d : Fin 8732) (e : L o = DL d) :
    ⊥ < masked B D L DL o d := by
  choose rb hrb using h.realB o
  choose rd hrd using h.realD d
  have hB : B o = fun c => (rb c : EReal) := funext hrb
  have hD : D d = fun c => (rd c : EReal) := funext hrd
  have hu := h.unionNe o d e
  unfold masked
  rw [if_pos e]
  rw [hB, hD] at hu ⊢
  obtain ⟨r, hr⟩ := iou_real rb rd hu
  rw [hr]
  exact EReal.bot_lt_coe r

/-- The best overlap is above `-∞` exactly when some detection carries the object's label. -/
theorem bot_lt_best_iff (h : Domain B D L DL) (o : Fin 2048) :
    ⊥ < best B D L DL o ↔ matched L DL o := by
  constructor
  · intro hb
    by_contra hm
    have : best B D L DL o ≤ ⊥ := by
      rw [best_le_iff]
      intro d
      have hne : ¬ L o = DL d := fun e => hm ⟨d, e⟩
      unfold masked
      rw [if_neg hne]
    exact absurd hb (not_lt.2 this)
  · rintro ⟨d, e⟩
    exact lt_of_lt_of_le (bot_lt_masked h o d e) ((best_le_iff o _).1 le_rfl d)

/-! ### The two losses -/

theorem outK_zero (h : Domain B D L DL) (o : Fin 2048) :
    outK B D L DL o 0 = term B D L DL o := by
  have z : (0 : Fin 2).val = 0 := rfl
  unfold outK term
  rw [if_pos z, run_eq_best h o]
  exact if_congr (bot_lt_best_iff h o) rfl rfl

theorem outK_one (h : Domain B D L DL) (o : Fin 2048) :
    outK B D L DL o 1 = if matched L DL o then 1 else 0 := by
  have z : ¬ (1 : Fin 2).val = 0 := by decide
  unfold outK
  rw [if_neg z, run_eq_best h o]
  exact if_congr (bot_lt_best_iff h o) rfl rfl

/-- A sum of 0/1 flags is the number of flags set, as an extended real. -/
theorem sum_flags (p : Fin 2048 → Prop) :
    (∑ o, (if p o then (1 : EReal) else 0)) = (((Finset.univ.filter p).card : ℝ) : EReal) := by
  rw [Finset.sum_boole, EReal.coe_natCast]

theorem resultTiled_eq (h : Domain B D L DL) : resultTiled B D L DL = result B D L DL := by
  unfold resultTiled result
  have h0 : (∑ o, outK B D L DL o 0) = ∑ o, term B D L DL o :=
    Finset.sum_congr rfl (fun o _ => outK_zero h o)
  have h1 : (∑ o, outK B D L DL o 1) = (((Finset.univ.filter (matched L DL)).card : ℝ) : EReal) := by
    rw [← sum_flags]
    exact Finset.sum_congr rfl (fun o _ => outK_one h o)
  rw [h0, h1]

end Cert.Iou

end
-- ==== Proof.Pieces.lean ====
/-
  What one grid point leaves behind, as values.

  The kernel visits the 8 × 3 grid row tile by row tile.  At every point it loads the four columns
  of its 256 object boxes, the four rows of its 2944 detection boxes, the two label blocks and the
  256 running maxima kept between points; it stores the new running maxima (`step`), and at the
  last tile of a row it also stores the 256 × 2 output block computed from them (`finish`).  At the
  first tile of a row the running maxima are first reset (`reset`).  The three lemmas per case say
  that the pieces the body's run leaves in the scratch and in the output's staging buffer are these
  values.
-/
import proofs.«118736_j31619549233713_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.KValue

open Cert.KernelIdeal Cert.KernelIdeal.Gen

variable {F : FTy → Type} [FloatOps F] [Named F]

theorem hz : (![0, 0] : Fin 2 → Nat) = fun _ => 0 := funext fun a => by fin_cases a <;> rfl

/-- The running maxima a row tile starts from. -/
abbrev reset : FVec F S256x1 .f32 := k0_pay3

/-- The new running maxima: the old ones against the row maxima of the masked overlaps of this tile. -/
def step (x0 : Vec F S256x4 .f32) (x1 : Vec F S256x1 .i32) (x2 : Vec F S4x2944 .f32) (x3 : Vec F S1x2944 .i32)
    (xs : Vec F S256x1 .f32) : FVec F S256x1 .f32 :=
  k0_pay1 (k0_pay4 (View.ld x2 (Rect.unit ![0, 0] ![1, 2944] inb_S4x2944_S1x2944_0_0)))
    (k0_pay5 (View.ld x2 (Rect.unit ![1, 0] ![1, 2944] inb_S4x2944_S1x2944_1_0)))
    (k0_pay6 (View.ld x2 (Rect.unit ![2, 0] ![1, 2944] inb_S4x2944_S1x2944_2_0)))
    (k0_pay7 (View.ld x2 (Rect.unit ![3, 0] ![1, 2944] inb_S4x2944_S1x2944_3_0)))
    (k0_pay8 (View.ld x0 (Rect.unit ![0, 0] ![256, 1] inb_S256x4_S256x1_0_0))
      (View.ld x0 (Rect.unit ![0, 1] ![256, 1] inb_S256x4_S256x1_0_1))
      (View.ld x0 (Rect.unit ![0, 2] ![256, 1] inb_S256x4_S256x1_0_2))
      (View.ld x0 (Rect.unit ![0, 3] ![256, 1] inb_S256x4_S256x1_0_3))
      (View.ld x2 (Rect.unit ![0, 0] ![1, 2944] inb_S4x2944_S1x2944_0_0))
      (View.ld x2 (Rect.unit ![1, 0] ![1, 2944] inb_S4x2944_S1x2944_1_0))
      (View.ld x2 (Rect.unit ![2, 0] ![1, 2944] inb_S4x2944_S1x2944_2_0))
      (View.ld x2 (Rect.unit ![3, 0] ![1, 2944] inb_S4x2944_S1x2944_3_0)))
    (k0_pay9 (View.ld x0 (Rect.unit ![0, 0] ![256, 1] inb_S256x4_S256x1_0_0))
      (View.ld x0 (Rect.unit ![0, 1] ![256, 1] inb_S256x4_S256x1_0_1))
      (View.ld x0 (Rect.unit ![0, 2] ![256, 1] inb_S256x4_S256x1_0_2))
      (View.ld x0 (Rect.unit ![0, 3] ![256, 1] inb_S256x4_S256x1_0_3)))
    x1 x3 xs

/-- The output block of a row tile, from its final running maxima. -/
abbrev finish (s : Vec F S256x1 .f32) : FVec F S256x2 .f32 := k0_pay2 s s

/-- A middle tile leaves `step` of what the tile before left. -/
theorem scratch_B (c : Dev nD) (i : grid0.Coords) (a2 : Memref sig .tc .vmem S256x4 .f32) (h2 : a2.IsWhole) (a3 : Memref sig .tc .vmem S256x1 .i32) (h3 : a3.IsWhole) (a4 : Memref sig .tc .vmem S4x2944 .f32) (h4 : a4.IsWhole) (a5 : Memref sig .tc .vmem S1x2944 .i32) (h5 : a5.IsWhole) (a6 : Memref sig .tc .vmem S256x2 .f32) (h6 : a6.IsWhole) (a7 : Memref sig .tc .vmem S256x1 .f32) (h7 : a7.IsWhole) (hc0 : ¬cond0_0 i) (hc1 : ¬cond0_1 i) (x0 : Vec F S256x4 .f32) (x1 : Vec F S256x1 .i32) (x2 : Vec F S4x2944 .f32) (x3 : Vec F S1x2944 .i32) (xs0 : Vec F S256x1 .f32) :
    sout0_B_0 c i a2 h2 a3 h3 a4 h4 a5 h5 a6 h6 a7 h7 hc0 hc1 x0 x1 x2 x3 xs0 = step x0 x1 x2 x3 xs0 := by
  unfold sout0_B_0
  rw [View.read_writes_eq_canon _ _ _ (scover0_B_0 c i a2 h2 a3 h3 a4 h4 a5 h5 a6 h6 a7 h7 hc0 hc1 x0 x1 x2 x3 xs0)]
  unfold kernelRun0_B
  dsimp only
  sl_unfold_words
  rw [View.canon_unit_zero hz]
  simp only [View.readAt_eq_ld, h2.read_unread, h3.read_unread, h4.read_unread, h5.read_unread, h7.read_unread,
    View.ld_unit_zero (S := S256x1) hz, View.ld_unit_zero (S := S1x2944) hz]
  rfl

/-- The last tile of a row leaves `step` of what the tile before left … -/
theorem scratch_C (c : Dev nD) (i : grid0.Coords) (a2 : Memref sig .tc .vmem S256x4 .f32) (h2 : a2.IsWhole) (a3 : Memref sig .tc .vmem S256x1 .i32) (h3 : a3.IsWhole) (a4 : Memref sig .tc .vmem S4x2944 .f32) (h4 : a4.IsWhole) (a5 : Memref sig .tc .vmem S1x2944 .i32) (h5 : a5.IsWhole) (a6 : Memref sig .tc .vmem S256x2 .f32) (h6 : a6.IsWhole) (a7 : Memref sig .tc .vmem S256x1 .f32) (h7 : a7.IsWhole) (hc0 : ¬cond0_0 i) (hc1 : cond0_1 i) (x0 : Vec F S256x4 .f32) (x1 : Vec F S256x1 .i32) (x2 : Vec F S4x2944 .f32) (x3 : Vec F S1x2944 .i32) (xs0 : Vec F S256x1 .f32) :
    sout0_C_0 c i a2 h2 a3 h3 a4 h4 a5 h5 a6 h6 a7 h7 hc0 hc1 x0 x1 x2 x3 xs0 = step x0 x1 x2 x3 xs0 := by
  unfold sout0_C_0
  rw [View.read_writes_eq_canon _ _ _ (scover0_C_0 c i a2 h2 a3 h3 a4 h4 a5 h5 a6 h6 a7 h7 hc0 hc1 x0 x1 x2 x3 xs0)]
  unfold kernelRun0_C
  dsimp only
  sl_unfold_words
  rw [View.canon_unit_zero hz]
  simp only [View.readAt_eq_ld, h2.read_unread, h3.read_unread, h4.read_unread, h5.read_unread, h7.read_unread,
    View.ld_unit_zero (S := S256x1) hz, View.ld_unit_zero (S := S1x2944) hz]
  rfl

/-- … and, in the output's staging buffer, `finish` of it. -/
theorem out_C (c : Dev nD) (i : grid0.Coords) (a2 : Memref sig .tc .vmem S256x4 .f32) (h2 : a2.IsWhole) (a3 : Memref sig .tc .vmem S256x1 .i32) (h3 : a3.IsWhole) (a4 : Memref sig .tc .vmem S4x2944 .f32) (h4 : a4.IsWhole) (a5 : Memref sig .tc .vmem S1x2944 .i32) (h5 : a5.IsWhole) (a6 : Memref sig .tc .vmem S256x2 .f32) (h6 : a6.IsWhole) (a7 : Memref sig .tc .vmem S256x1 .f32) (h7 : a7.IsWhole) (hc0 : ¬cond0_0 i) (hc1 : cond0_1 i) (x0 : Vec F S256x4 .f32) (x1 : Vec F S256x1 .i32) (x2 : Vec F S4x2944 .f32) (x3 : Vec F S1x2944 .i32) (xs0 : Vec F S256x1 .f32) :
    out0_C_4 c i a2 h2 a3 h3 a4 h4 a5 h5 a6 h6 a7 h7 hc0 hc1 x0 x1 x2 x3 xs0 = finish (step x0 x1 x2 x3 xs0) := by
  unfold out0_C_4
  rw [View.read_writes_eq_canon _ _ _ (cover0_C_4 c i a2 h2 a3 h3 a4 h4 a5 h5 a6 h6 a7 h7 hc0 hc1 x0 x1 x2 x3 xs0)]
  unfold kernelRun0_C
  dsimp only
  sl_unfold_words
  rw [View.canon_unit_zero (S := S256x2) hz]
  simp only [View.readCov_unit_zero (S := S256x1) _ hz, View.readAt_eq_ld, h2.read_unread, h3.read_unread, h4.read_unread,
    h5.read_unread, h7.read_unread, View.ld_unit_zero (S := S256x1) hz, View.ld_unit_zero (S := S1x2944) hz]
  rfl

/-- The first tile of a row resets the running maxima and leaves `step` of the reset value. -/
theorem scratch_A (c : Dev nD) (i : grid0.Coords) (a2 : Memref sig .tc .vmem S256x4 .f32) (h2 : a2.IsWhole) (a3 : Memref sig .tc .vmem S256x1 .i32) (h3 : a3.IsWhole) (a4 : Memref sig .tc .vmem S4x2944 .f32) (h4 : a4.IsWhole) (a5 : Memref sig .tc .vmem S1x2944 .i32) (h5 : a5.IsWhole) (a6 : Memref sig .tc .vmem S256x2 .f32) (h6 : a6.IsWhole) (a7 : Memref sig .tc .vmem S256x1 .f32) (h7 : a7.IsWhole) (hc0 : cond0_0 i) (hc1 : ¬cond0_1 i) (x0 : Vec F S256x4 .f32) (x1 : Vec F S256x1 .i32) (x2 : Vec F S4x2944 .f32) (x3 : Vec F S1x2944 .i32) :
    sout0_A_0 c i a2 h2 a3 h3 a4 h4 a5 h5 a6 h6 a7 h7 hc0 hc1 x0 x1 x2 x3 = step x0 x1 x2 x3 reset := by
  unfold sout0_A_0
  rw [View.read_writes_eq_canon _ _ _ (scover0_A_0 c i a2 h2 a3 h3 a4 h4 a5 h5 a6 h6 a7 h7 hc0 hc1 x0 x1 x2 x3)]
  unfold kernelRun0_A
  dsimp only
  sl_unfold_words
  rw [View.canon_cons_unit_zero (S := S256x1) hz]
  simp only [View.readCov_unit_zero (S := S256x1) _ hz, View.readAt_eq_ld, h2.read_unread, h3.read_unread, h4.read_unread,
    h5.read_unread, View.ld_unit_zero (S := S256x1) hz, View.ld_unit_zero (S := S1x2944) hz]
  rfl

end Cert.KernelIdeal.KValue

end
-- ==== Proof.Tiles.lean ====
/-
  The grid, row tile by row tile.

  The 24 grid points come in eight runs of three (first, middle, last tile of a row of 256 objects).
  The running maxima after a point are `step` of the point's blocks applied to what the point
  before left — to the reset value at the first tile —, so the output block a last tile writes is
  `finish` of three nested `step`s: no induction over the grid is needed, only the three points
  of the run.
-/
import proofs.«118736_j31619549233713_2_alg».proof.Proof.Pieces

set_option maxRecDepth 16384

noncomputable section

open Idealize.ShloMosaic Idealize.ShloMosaic.TcCoe Idealize.SL.Sem

namespace Cert.KernelIdeal.KValue

open Cert.KernelIdeal Cert.KernelIdeal.Gen

variable {F : FTy → Type} [FloatOps F] [Named F]
variable (m : (ℓ : Loc nD τ sig) → Buf (Elt F) ℓ)

/-- `step` over the four input blocks of grid point `t`. -/
def stepAt (c : Dev nD) (t : Fin cfg0.N) (xs : Vec F S256x1 .f32) : FVec F S256x1 .f32 :=
  step (iblk m c 0 t) (iblk m c 1 t) (iblk m c 2 t) (iblk m c 3 t) xs

/-- The grid point before `t`. -/
def prev (t : Fin cfg0.N) : Fin cfg0.N := ⟨t.val - 1, Nat.lt_of_le_of_lt (Nat.sub_le _ _) t.isLt⟩

/-- First tile of a row: the running maxima are `step` of the reset value. -/
theorem scratch_first (c : Dev nD) (t : Fin cfg0.N) (h0 : t.val % 3 = 0) :
    (outsAt0 m c t.val t.isLt).2 = stepAt m c t reset := by
  have h1 : ¬t.val % 3 = 2 := by omega
  rw [outsAt0_A m c t h0 h1]
  exact scratch_A c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)

/-- Middle tile: `step` of what the tile before left. -/
theorem scratch_mid (c : Dev nD) (t : Fin cfg0.N) (h : t.val % 3 = 1) :
    (outsAt0 m c t.val t.isLt).2 = stepAt m c t (outsAt0 m c (prev t).val (prev t).isLt).2 := by
  have h0 : ¬t.val % 3 = 0 := by omega
  have h1 : ¬t.val % 3 = 2 := by omega
  rw [outsAt0_B m c t h0 h1]
  exact scratch_B c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (prev t).val (prev t).isLt).2

/-- Last tile: the output block is `finish` of `step` of what the tile before left. -/
theorem out_last (c : Dev nD) (t : Fin cfg0.N) (h1 : t.val % 3 = 2) :
    (outsAt0 m c t.val t.isLt).1 = finish (stepAt m c t (outsAt0 m c (prev t).val (prev t).isLt).2) := by
  have h0 : ¬t.val % 3 = 0 := by omega
  rw [outsAt0_C m c t h0 h1]
  exact out_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (prev t).val (prev t).isLt).2

/-- The output block of a row: `finish` of the three tiles' `step`s from the reset value. -/
theorem out_row (c : Dev nD) (t : Fin cfg0.N) (h : t.val % 3 = 2) :
    (outsAt0 m c t.val t.isLt).1
      = finish (stepAt m c t (stepAt m c (prev t) (stepAt m c (prev (prev t)) reset))) := by
  have e1 : (prev t).val % 3 = 1 := by show (t.val - 1) % 3 = 1; omega
  have e2 : (prev (prev t)).val % 3 = 0 := by show (t.val - 1 - 1) % 3 = 0; omega
  rw [out_last m c t h, scratch_mid m c (prev t) e1, scratch_first m c (prev (prev t)) e2]

end Cert.KernelIdeal.KValue

end
-- ==== Proof.Rows.lean ====
/-
  From blocks to arrays.

  Grid point `t` is tile `t % 3` of row `t / 3`: its object blocks are rows `256·(t/3) …` of the
  boxes and of the label column, its detection blocks are columns `2944·(t%3) …` of the transposed
  padded detection boxes and of the padded label row, and the output block a last tile writes back
  is rows `256·(t/3) …` of the 2048 × 2 result.  The eight last tiles cover that array, so after
  the run it is one function of the operand arrays, row by row.
-/
import proofs.«118736_j31619549233713_2_alg».proof.Proof.Tiles
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen

variable {F : FTy → Type} [FloatOps F] [Named F]
variable (m : (ℓ : Loc nD τ sig) → Buf (Elt F) ℓ) (ρ : Dev nD → PrngReg)

/-- The printed index maps over the grid: the object windows and the output move with the row `t / 3`,
    the detection windows with the tile `t % 3`. -/
theorem idx_facts : ∀ t : Fin cfg0.N,
    win0_0.index t (0 : Fin 2) = t.val / 3 ∧ win0_0.index t (1 : Fin 2) = 0
    ∧ win0_1.index t (0 : Fin 2) = t.val / 3 ∧ win0_1.index t (1 : Fin 2) = 0
    ∧ win0_2.index t (0 : Fin 2) = 0 ∧ win0_2.index t (1 : Fin 2) = t.val % 3
    ∧ win0_3.index t (0 : Fin 2) = 0 ∧ win0_3.index t (1 : Fin 2) = t.val % 3
    ∧ win0_4.index t (0 : Fin 2) = t.val / 3 ∧ win0_4.index t (1 : Fin 2) = 0 :=
  (by decide +kernel : ∀ t : Fin grid0.N, _)

/-- Row `r` of the object block at `t` is row `256·(t/3) + r` of the boxes. -/
theorem boxes_blk (c : Dev nD) (t : Fin cfg0.N) (r : Fin 256) (k : Fin 4) (o : Fin 2048)
    (ho : o.val = t.val / 3 * 256 + r.val) :
    (iblk m c 0 t : Vec F S256x4 .f32) (ix2 r k) = V m c main_arg3 (ix2 o k) := by
  obtain ⟨e0, e1, -⟩ := idx_facts t
  show V m c main_arg3 (((cfg0.win 0).blk t).view.emb (ix2 r k)) = V m c main_arg3 (ix2 o k)
  congr 1
  funext a; apply Fin.ext
  match a with
  | ⟨0, _⟩ => show win0_0.index t (0 : Fin 2) * 256 + 1 * r.val = o.val; omega
  | ⟨1, _⟩ => show win0_0.index t (1 : Fin 2) * 4 + 1 * k.val = k.val; omega

/-- Row `r` of the label block at `t` is row `256·(t/3) + r` of the label column. -/
theorem labels_blk (c : Dev nD) (t : Fin cfg0.N) (r : Fin 256) (o : Fin 2048)
    (ho : o.val = t.val / 3 * 256 + r.val) :
    (iblk m c 1 t : Vec F S256x1 .i32) (ix2 r (0 : Fin 1)) = V m c main_v0 (ix2 o (0 : Fin 1)) := by
  obtain ⟨-, -, e0, e1, -⟩ := idx_facts t
  show V m c main_v0 (((cfg0.win 1).blk t).view.emb (ix2 r (0 : Fin 1))) = V m c main_v0 (ix2 o (0 : Fin 1))
  congr 1
  funext a; apply Fin.ext
  match a with
  | ⟨0, _⟩ => show win0_1.index t (0 : Fin 2) * 256 + 1 * r.val = o.val; omega
  | ⟨1, _⟩ => show win0_1.index t (1 : Fin 2) * 1 + 1 * 0 = 0; omega

/-- Column `k` of the detection block at `t` is column `2944·(t%3) + k` of the transposed padded boxes. -/
theorem dets_blk (c : Dev nD) (t : Fin cfg0.N) (q : Fin 4) (k : Fin 2944) (d : Fin 8832)
    (hd : d.val = t.val % 3 * 2944 + k.val) :
    (iblk m c 2 t : Vec F S4x2944 .f32) (ix2 q k) = V m c main_v3 (ix2 q d) := by
  obtain ⟨-, -, -, -, e0, e1, -⟩ := idx_facts t
  show V m c main_v3 (((cfg0.win 2).blk t).view.emb (ix2 q k)) = V m c main_v3 (ix2 q d)
  congr 1
  funext a; apply Fin.ext
  match a with
  | ⟨0, _⟩ => show win0_2.index t (0 : Fin 2) * 4 + 1 * q.val = q.val; omega
  | ⟨1, _⟩ => show win0_2.index t (1 : Fin 2) * 2944 + 1 * k.val = d.val; omega

/-- Column `k` of the detection-label block at `t` is column `2944·(t%3) + k` of the padded label row. -/
theorem dlabels_blk (c : Dev nD) (t : Fin cfg0.N) (k : Fin 2944) (d : Fin 8832)
    (hd : d.val = t.val % 3 * 2944 + k.val) :
    (iblk m c 3 t : Vec F S1x2944 .i32) (ix2 (0 : Fin 1) k) = V m c main_v4 (ix2 (0 : Fin 1) d) := by
  obtain ⟨-, -, -, -, -, -, e0, e1, -⟩ := idx_facts t
  show V m c main_v4 (((cfg0.win 3).blk t).view.emb (ix2 (0 : Fin 1) k)) = V m c main_v4 (ix2 (0 : Fin 1) d)
  congr 1
  funext a; apply Fin.ext
  match a with
  | ⟨0, _⟩ => show win0_3.index t (0 : Fin 2) * 1 + 1 * 0 = 0; omega
  | ⟨1, _⟩ => show win0_3.index t (1 : Fin 2) * 2944 + 1 * k.val = d.val; omega

/-- The last tile of row `q`. -/
def lastTile (q : Fin 8) : Fin cfg0.N := ⟨3 * q.val + 2, by rw [show cfg0.N = 24 from N_0]; have := q.isLt; omega⟩

/-- The output block of the row whose last tile is `t`. -/
def rowBlock (c : Dev nD) (t : Fin cfg0.N) : FVec F S256x2 .f32 :=
  finish (stepAt m c t (stepAt m c (prev t) (stepAt m c (prev (prev t)) reset)))

/-- The 2048 × 2 result: row `o` is row `o % 256` of the output block of row tile `o / 256`. -/
def outArray (c : Dev nD) : S2048x2.Idx → Elt F .f32 := fun i =>
  rowBlock m c (lastTile ⟨(i 0).val / 256, by have := idx2_lt0 i; omega⟩)
    (ix2 (⟨(i 0).val % 256, Nat.mod_lt _ (by decide)⟩ : Fin 256) (i 1))

/-- What a last tile writes back is its block of `outArray`. -/
theorem flushed_eq (c : Dev nD) (t : Fin cfg0.N) (hf : (cfg0.win 4).flush t = true) :
    (dats m 0 c).flushed 4 t = ((cfg0.win 4).blk t).view.read (Elt F) (outArray m c) := by
  have h2 : t.val % 3 = 2 := (flush0_4 t).mp hf
  have hN : t.val < 24 := lt_of_lt_of_eq t.isLt (show cfg0.N = 24 from N_0)
  obtain ⟨-, -, -, -, -, -, -, -, e0, e1⟩ := idx_facts t
  show (cfg0.win 4).cut (grid0.coords t) ((dats m 0 c).after 4 t) = _
  rw [after0_4, out_row m c t h2]
  funext j
  show rowBlock m c t j = outArray m c (((cfg0.win 4).blk t).view.emb j)
  have hj0 : (j 0).val < 256 := idx2_lt0 j
  have hj1 : (j 1).val < 2 := idx2_lt1 j
  have c0 : ((((cfg0.win 4).blk t).view.emb j) 0).val = t.val / 3 * 256 + (j 0).val := by
    show win0_4.index t (0 : Fin 2) * 256 + 1 * (j 0).val = _; omega
  have c1 : ((((cfg0.win 4).blk t).view.emb j) 1).val = (j 1).val := by
    show win0_4.index t (1 : Fin 2) * 2 + 1 * (j 1).val = _; omega
  unfold outArray
  have ht : lastTile ⟨((((cfg0.win 4).blk t).view.emb j) 0).val / 256, by have := idx2_lt0 (((cfg0.win 4).blk t).view.emb j); omega⟩ = t := by
    apply Fin.ext; show 3 * (((((cfg0.win 4).blk t).view.emb j) 0).val / 256) + 2 = t.val; rw [c0]; omega
  rw [ht]
  congr 1
  funext a
  match a with
  | ⟨0, _⟩ => apply Fin.ext; show (j 0).val = ((((cfg0.win 4).blk t).view.emb j) 0).val % 256; rw [c0]; omega
  | ⟨1, _⟩ => apply Fin.ext; show (j 1).val = ((((cfg0.win 4).blk t).view.emb j) 1).val; rw [c1]

/-- An index of the result is in point `t`'s block iff each coordinate is in the block's range. -/
theorem mem_blk (t : Fin cfg0.N) (i : S2048x2.Idx) :
    i ∈ ((cfg0.win 4).blk t).view.set ↔ ∀ a : Fin 2, win0_4.index t a * S256x2.size a ≤ (i a).val ∧ (i a).val < win0_4.index t a * S256x2.size a + S256x2.size a := by
  show i ∈ ((View.whole main_v5).slice (win0_4.rect t)).set ↔ _
  rw [View.set_slice_whole, Rect.mem_set_unit]
  exact Iff.rfl

/-- Every row of the result is in the block of its row tile's last point. -/
theorem cover (i : S2048x2.Idx) : ∃ t : Fin cfg0.N, (cfg0.win 4).flush t = true ∧ i ∈ ((cfg0.win 4).blk t).view.set := by
  have hi0 : (i 0).val < 2048 := idx2_lt0 i
  have hi1 : (i 1).val < 2 := idx2_lt1 i
  refine ⟨lastTile ⟨(i 0).val / 256, by omega⟩, (flush0_4 _).mpr (by show (3 * ((i 0).val / 256) + 2) % 3 = 2; omega), ?_⟩
  rw [mem_blk]
  obtain ⟨-, -, -, -, -, -, -, -, e0, e1⟩ := idx_facts (lastTile ⟨(i 0).val / 256, by omega⟩)
  have e0' : win0_4.index (lastTile ⟨(i 0).val / 256, by omega⟩) (0 : Fin 2) = (i 0).val / 256 := by
    rw [e0]; show (3 * ((i 0).val / 256) + 2) / 3 = _; omega
  intro a
  match a with
  | ⟨0, _⟩ => show win0_4.index _ (0 : Fin 2) * 256 ≤ (i 0).val ∧ (i 0).val < win0_4.index _ (0 : Fin 2) * 256 + 256; rw [e0']; omega
  | ⟨1, _⟩ => show win0_4.index _ (1 : Fin 2) * 2 ≤ (i 1).val ∧ (i 1).val < win0_4.index _ (1 : Fin 2) * 2 + 2; rw [e1]; omega

/-- The result array after the region. -/
theorem final (c : Dev nD) : (dats m 0 c).arrAt 4 cfg0.N = outArray m c :=
  (dats m 0 c).arrAt_eq_of_cover 4 (outArray m c) (flushed_eq m c) (cover)

end Cert.KernelIdeal.KValue

end
-- ==== Proof.Tail.lean ====
/-
  The host lines after the region.

  The 2048 × 2 array the region leaves is cut into its two columns; each is summed, and the first
  sum is divided by the second.  `tail` is those lines as one function of the array, and the
  program's result buffer ends at `tail` of `outArray`.
-/
import proofs.«118736_j31619549233713_2_alg».proof.Proof.Rows
import Idealize.ShloMosaic.Lib.StableHlo.Run

set_option maxRecDepth 16384

noncomputable section

open Idealize.ShloMosaic Idealize.ShloMosaic.TcCoe Idealize.SL.Sem Idealize.ShloMosaic.ValueIdx Idealize.ShloMosaic.StableHlo

namespace Cert.KernelIdeal.KValue

open Cert.KernelIdeal Cert.KernelIdeal.Gen

variable {F : FTy → Type} [FloatOps F] [Named F]
variable (m : (ℓ : Loc nD τ sig) → Buf (Elt F) ℓ) (ρ : Dev nD → PrngReg)

/-- Column `0` summed over column `1` summed. -/
def tail (out : S2048x2.Idx → Elt F .f32) : S_.Idx → Elt F .f32 :=
  Host.divf
    (Host.reduceAdd (shapeCast S2048 (extractStridedSlice S2048x1 ![0, 0] out slices_S2048x2_S2048x1_0_0) shapeCasts_S2048x1_S2048)
      (constant S_ .f32 0x00000000#32) reducesTo_S2048_S_d0 h_S_)
    (Host.reduceAdd (shapeCast S2048 (extractStridedSlice S2048x1 ![0, 1] out slices_S2048x2_S2048x1_0_1) shapeCasts_S2048x1_S2048)
      (constant S_ .f32 0x00000000#32) reducesTo_S2048_S_d0 h_S_)

/-- The result buffer after the whole program. -/
theorem tail_eq (c : Dev nD) :
    Pipeline.afterTail₀ cfgs (dats m) 0 (V0 m) [hostOps1] c main_v12 = tail (outArray m c) := by
  have e : Pipeline.withArrays (cfgs 0).spec c (V0 m c) (fun w => (dats m 0 c).arrAt w (cfgs 0).N) (Proc.tc.devRef main_v5)
      = outArray m c := (Pipeline.withArrays_arr spec0 launch0.win.arr_inj c _ _ 4).trans (final m c)
  unfold Pipeline.afterTail₀
  show StableHlo.after hostOps1 _ (Proc.devRef .tc main_v12) = _
  after_results
  rw [e]
  rfl

/-- The run, read: the result at `tail` of `outArray`, the arguments unchanged. -/
theorem run : θ_run defs (onTc (τ := τ) (main (F := F))) ⟨m, fun _ => 0, ρ⟩ fun r => ∀ c : Dev nD,
      r.2.mem ((c.tc : Thread nD τ).loc main_v12) = tail (outArray m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v12 (Pipeline.mem_restRefs_of main_v12 (by decide) (by decide))).trans (tail_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      ((h c).1 0).trans (((dats m 0 c).arrAt_in 0 rfl _).trans ((A_eq m c 0).trans (V_main_arg3 m c))),
      (((h c).2 main_arg4 (Pipeline.mem_restRefs_of main_arg4 (by decide) (by decide))).trans (W_main_arg4 m (dats m) c))⟩)
    (run_main m ρ)

end Cert.KernelIdeal.KValue

end
-- ==== Proof.HostHead.lean ====
/- What the region finds in its operand arrays, as functions of the program's arguments: the host lines before
   the region reshape the ground-truth labels to a column, append 100 filler rows to the detection boxes and 100
   filler entries to the detection labels, transpose the boxes to coordinate-major and view the labels as one row.
   The filler rows are zero boxes with label -1. -/
import proofs.«118736_j31619549233713_2_alg».proof.Proof.Gen.KernelIdeal.Frame
import Idealize.ShloMosaic.Lib.Pipeline.Value
import Idealize.ShloMosaic.Lib.StableHlo.Run
import Idealize.ShloMosaic.Lib.ValueIdx
import Idealize.ShloMosaic.Lib.ValueLayout
import Idealize.ShloMosaic.Lib.KernelVsHost

set_option maxRecDepth 16384

noncomputable section

namespace Cert.KernelIdeal.KValue

open Cert.KernelIdeal Cert.KernelIdeal.Gen
open Idealize.ShloMosaic Idealize.ShloMosaic.TcCoe Idealize.SL.Sem Idealize.ShloMosaic.StableHlo
open Idealize.ShloMosaic.ValueIdx

variable (m : (ℓ : Loc nD τ sig) → Buf (Elt Ideal) ℓ)

/-- The ground-truth labels as the region finds them: the argument viewed as a column. -/
theorem V_labels_eq (c : Dev nD) :
    (V (F := Ideal) m c main_v0 : S2048x1.Idx → BitVec 32)
      = shapeCast S2048x1 (m ((c : Thread nD τ).loc main_arg4) : S2048.Idx → BitVec 32) shapeCasts_S2048_S2048x1 := by
  dsimp only [V, V0]
  simp only [hostOps0, hostOps0_1, hostOps0_2, hostOps0_3, hostOps0_4, List.flatten_cons, List.flatten_nil,
    List.append_nil, List.cons_append, List.nil_append]
  after_results
  rfl

/-- The detection boxes as the region finds them: 100 filler rows appended, then transposed. -/
theorem V_dets_eq (c : Dev nD) :
    (V (F := Ideal) m c main_v3 : S4x8832.Idx → EReal)
      = transpose S4x8832 [1, 0]
          (pad S8832x4 ![0, 0] ![100, 0] ![0, 0] (m ((c : Thread nD τ).loc main_arg0) : S8732x4.Idx → EReal)
            (sitofp (F := Ideal) .f32 (constantI S_ 32 0#32)) pads_S8732x4_S8832x4_01000_000 h_S_)
          transposes_S8832x4_S4x8832_1_0 := by
  dsimp only [V, V0]
  simp only [hostOps0, hostOps0_1, hostOps0_2, hostOps0_3, hostOps0_4, List.flatten_cons, List.flatten_nil,
    List.append_nil, List.cons_append, List.nil_append]
  after_results
  rfl

/-- The detection labels as the region finds them: 100 filler entries appended, then viewed as one row. -/
theorem V_dlabels_eq (c : Dev nD) :
    (V (F := Ideal) m c main_v4 : S1x8832.Idx → BitVec 32)
      = shapeCast S1x8832
          (pad S8832 ![0] ![100] ![0] (m ((c : Thread nD τ).loc main_arg2) : S8732.Idx → BitVec 32)
            (constantI S_ 32 4294967295#32) pads_S8732_S8832_01000 h_S_)
          shapeCasts_S8832_S1x8832 := by
  dsimp only [V, V0]
  simp only [hostOps0, hostOps0_1, hostOps0_2, hostOps0_3, hostOps0_4, List.flatten_cons, List.flatten_nil,
    List.append_nil, List.cons_append, List.nil_append]
  after_results
  rfl

/-- Ground-truth label `o` sits at row `o` of the column. -/
theorem V_labels (c : Dev nD) (o : Fin 2048) :
    (V (F := Ideal) m c main_v0 : S2048x1.Idx → BitVec 32) (ix2 o (0 : Fin 1))
      = (m ((c : Thread nD τ).loc main_arg4) : S2048.Idx → BitVec 32) (ix1 o) := by
  refine (congrFun (V_labels_eq m c) (ix2 o (0 : Fin 1))).trans ?_
  exact shapeCast_apply _ shapeCasts_S2048_S2048x1 _ _ (by
    rw [Shape.rowMajor_val_one, Shape.rowMajor_val_two]
    show o.val = o.val * 1 + 0
    omega)

/-- Coordinate `k` of detection `d`: the argument's entry `(d, k)` for a real detection, and `0` for each of
    the 100 filler detections (the filler is the integer `0` converted, which is the real number `0`). -/
theorem V_dets (c : Dev nD) (k : Fin 4) (d : Fin 8832) :
    (V (F := Ideal) m c main_v3 : S4x8832.Idx → EReal) (ix2 k d)
      = (if h : d.val < 8732 then
          (m ((c : Thread nD τ).loc main_arg0) : S8732x4.Idx → EReal) (ix2 (⟨d.val, h⟩ : Fin 8732) k)
        else 0 : EReal) := by
  refine (congrFun (V_dets_eq m c) (ix2 k d)).trans ?_
  refine (transpose_ix2_apply _ transposes_S8832x4_S4x8832_1_0 k d).trans ?_
  by_cases h : d.val < 8732
  · rw [dif_pos h]
    exact pad_apply_of_inside (s := S8732x4) (t := S8832x4) ![0, 0] ![100, 0] ![0, 0] _ _ pads_S8732x4_S8832x4_01000_000 h_S_ (ix2 d k)
      (ix2 (⟨d.val, h⟩ : Fin 8732) k) (fun a => match a with
        | ⟨0, _⟩ => by show d.val = 0 + d.val * (0 + 1); omega
        | ⟨1, _⟩ => by show k.val = 0 + k.val * (0 + 1); omega)
  · rw [dif_neg h]
    refine (pad_apply_of_not_inside (s := S8732x4) (t := S8832x4) ![0, 0] ![100, 0] ![0, 0] _ _ pads_S8732x4_S8832x4_01000_000 h_S_ (ix2 d k)
      (0 : Fin 2) ?_).trans ?_
    · show ¬(0 ≤ d.val ∧ (d.val - 0) % (0 + 1) = 0 ∧ (d.val - 0) / (0 + 1) < 8732)
      omega
    · show (((0#32 : BitVec 32).toInt : ℝ) : EReal) = 0
      simp

/-- The label of detection `d`: the argument's entry `d` for a real detection, and `-1` (the word of all ones)
    for each of the 100 filler detections. -/
theorem V_dlabels (c : Dev nD) (d : Fin 8832) :
    (V (F := Ideal) m c main_v4 : S1x8832.Idx → BitVec 32) (ix2 (0 : Fin 1) d)
      = (if h : d.val < 8732 then
          (m ((c : Thread nD τ).loc main_arg2) : S8732.Idx → BitVec 32) (ix1 (⟨d.val, h⟩ : Fin 8732))
        else 4294967295#32 : BitVec 32) := by
  refine (congrFun (V_dlabels_eq m c) (ix2 (0 : Fin 1) d)).trans ?_
  refine (shapeCast_a_1a_apply _ shapeCasts_S8832_S1x8832 (0 : Fin 1) d).trans ?_
  by_cases h : d.val < 8732
  · rw [dif_pos h]
    exact pad_apply_of_inside (s := S8732) (t := S8832) ![0] ![100] ![0] _ _ pads_S8732_S8832_01000 h_S_ (ix1 d)
      (ix1 (⟨d.val, h⟩ : Fin 8732)) (fun a => match a with
        | ⟨0, _⟩ => by show d.val = 0 + d.val * (0 + 1); omega)
  · rw [dif_neg h]
    refine (pad_apply_of_not_inside (s := S8732) (t := S8832) ![0] ![100] ![0] _ _ pads_S8732_S8832_01000 h_S_ (ix1 d) (0 : Fin 1) ?_).trans ?_
    · show ¬(0 ≤ d.val ∧ (d.val - 0) % (0 + 1) = 0 ∧ (d.val - 0) / (0 + 1) < 8732)
      omega
    · rfl

end Cert.KernelIdeal.KValue
-- ==== Proof.PayloadAt.lean ====
/-
  The kernel body's arithmetic, read at one entry, at the ideal values.

  At the ideal instance every float is an extended real and every operation the exact one, so each
  value the body stores is a closed expression in the entries it loads.  For one object `r` of the
  256 of a block and one detection `k` of the 2944 of a tile the body forms the clipped intersection
  of the two boxes, the two areas, the union and their quotient — the overlap of the certificate's
  mathematics —, masks it by the equality of the two labels, takes the row maximum over the tile
  and folds it into the running maximum; the closing step turns the running maximum into the
  contribution `1 - best` and the flag `1`, or `0` and `0` for an object no detection matched.
-/
import proofs.«118736_j31619549233713_2_alg».proof.Proof.Pieces
import proofs.«118736_j31619549233713_2_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

set_option maxRecDepth 16384

noncomputable section

open Idealize.ShloMosaic Idealize.ShloMosaic.TcCoe Idealize.SL.Sem

namespace Cert.KernelIdeal.KValue

open Cert.KernelIdeal Cert.KernelIdeal.Gen Idealize.ShloMosaic.ValueIdx

/-! ## The constants -/

/-- The mask value of the overlaps is `-∞` at the ideal values. -/
theorem neg_big : Named.named (F := Ideal) κ "neg_big" (φ := .f32) 0xF149F2CA#32 = ⊥ :=
  IdealRules.named_const.ideal_named_scalar _ _ _ _ rfl

/-- The threshold of the closing comparison is `-∞` at the ideal values. -/
theorem neg_big_2 : Named.named (F := Ideal) κ "neg_big_2" (φ := .f32) 0xEFA18F08#32 = ⊥ :=
  IdealRules.named_const.ideal_named_scalar _ _ _ _ rfl

/-- The pattern of `-∞`. -/
theorem ofBits_ninf : Ideal.ofBits .f32 0xFF800000#32 = ⊥ := by simp [Ideal.ofBits, Ideal.ieee]

/-- The pattern of `1`. -/
theorem ofBits_one : Ideal.ofBits .f32 0x3F800000#32 = 1 := by
  simp [Ideal.ofBits, Ideal.ieee, -EReal.coe_mul]; norm_num

/-- The pattern of `0`. -/
theorem ofBits_zero : Ideal.ofBits .f32 0x00000000#32 = 0 := by simp [Ideal.ofBits, Ideal.ieee]

/-! ## Broadcasts and loads at an entry -/

/-- A column broadcast along the rows' entries reads the column at the row. -/
theorem bc_col {α : Type} (v : S256x1.Idx → α) (h : S256x1.Broadcasts S256x2944) (r : Fin 256) (k : Fin 2944) :
    broadcastTo S256x2944 v h (ix2 r k) = v (ix2 r (0 : Fin 1)) := by
  refine broadcastTo_apply v h (ix2 r k) (ix2 r (0 : Fin 1)) fun ax => ?_
  match ax with
  | ⟨0, _⟩ => rfl
  | ⟨1, _⟩ => rfl

/-- A row broadcast over the rows reads the row at the column. -/
theorem bc_row {α : Type} (v : S1x2944.Idx → α) (h : S1x2944.Broadcasts S256x2944) (r : Fin 256) (k : Fin 2944) :
    broadcastTo S256x2944 v h (ix2 r k) = v (ix2 (0 : Fin 1) k) :=
  broadcastTo_1b_ab_apply v h r k

/-- A column of the object block, loaded as a block of its own, reads the block at that column. -/
theorem ld_col (x0 : Vec Ideal S256x4 .f32) (c : Fin 4)
    (inb : ∀ a, (![0, c.val] : Fin 2 → Nat) a + (![256, 1] : Fin 2 → Nat) a ≤ S256x4.size a) (r : Fin 256) :
    (View.ld x0 (Rect.unit ![0, c.val] ![256, 1] inb) : Vec Ideal S256x1 .f32) (ix2 r (0 : Fin 1)) = x0 (ix2 r c) := by
  show x0 _ = x0 _
  congr 1; funext a; apply Fin.ext
  match a with
  | ⟨0, _⟩ => show 0 + 1 * r.val = r.val; omega
  | ⟨1, _⟩ => show c.val + 1 * 0 = c.val; omega

/-- A row of the detection block, loaded as a block of its own, reads the block at that row. -/
theorem ld_row (x2 : Vec Ideal S4x2944 .f32) (c : Fin 4)
    (inb : ∀ a, (![c.val, 0] : Fin 2 → Nat) a + (![1, 2944] : Fin 2 → Nat) a ≤ S4x2944.size a) (k : Fin 2944) :
    (View.ld x2 (Rect.unit ![c.val, 0] ![1, 2944] inb) : Vec Ideal S1x2944 .f32) (ix2 (0 : Fin 1) k) = x2 (ix2 c k) := by
  show x2 _ = x2 _
  congr 1; funext a; apply Fin.ext
  match a with
  | ⟨0, _⟩ => show c.val + 1 * 0 = c.val; omega
  | ⟨1, _⟩ => show 0 + 1 * k.val = k.val; omega

/-- A vector of 256 entries cast to a column reads, at `(i, 0)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## Words: the two comparisons under a select, and a bit as a number -/

/-- A select on the equality of two words is the `if` on it. -/
theorem select_cmpi_eq {α : Type} (x y : BitVec 32) (A B : α) :
    Scalar.select (IntOp.cmpi .eq x y) A B = if x = y then A else B := by
  show Scalar.select (BitVec.ofBool (x == y)) A B = _
  by_cases h : x = y
  · have e : (x == y) = true := by simpa using h
    rw [e, if_pos h]; exact select_one A B
  · have e : (x == y) = false := by simpa using h
    rw [e, if_neg h]; exact select_zero A B

/-- The strict comparison of two extended reals, as a bit. -/
theorem cmpf_ogt_eq (x y : EReal) :
    FloatOps.cmpf (F := Ideal) (φ := .f32) .ogt x y = if y < x then 1#1 else 0#1 := by
  show Ideal.cmp .ogt x y = _
  by_cases h : y < x
  · rw [if_pos h]; simp [Ideal.cmp, h]
  · rw [if_neg h]; simp [Ideal.cmp, h]

/-- A bit widened to a word and read as a signed integer is `1` or `0`. -/
theorem sitofp_bit (c : BitVec 1) :
    FloatOps.sitofp (F := Ideal) .f32 (c.setWidth 32) = if c = 1#1 then (1 : EReal) else 0 := by
  show (((c.setWidth 32).toInt : ℝ) : EReal) = _
  rcases BitVec.eq_zero_or_eq_one c with h | h
  · subst h; rw [if_neg (by decide)]
    have : ((0#1 : BitVec 1).setWidth 32).toInt = 0 := by decide
    rw [this]; simp
  · subst h; rw [if_pos rfl]
    have : ((1#1 : BitVec 1).setWidth 32).toInt = 1 := by decide
    rw [this]; simp

/-! ## The arithmetic of one pair of boxes -/

/-- The tile's rows pass through unchanged. -/
theorem pay4_eq (v : Vec Ideal S1x2944 .f32) : k0_pay4 (F := Ideal) v = v := shapeCast_self _ _
theorem pay5_eq (v : Vec Ideal S1x2944 .f32) : k0_pay5 (F := Ideal) v = v := shapeCast_self _ _
theorem pay6_eq (v : Vec Ideal S1x2944 .f32) : k0_pay6 (F := Ideal) v = v := shapeCast_self _ _
theorem pay7_eq (v : Vec Ideal S1x2944 .f32) : k0_pay7 (F := Ideal) v = v := shapeCast_self _ _

/-- The intersection of object `r`'s box with detection `k`'s: the product of the two clipped extents. -/
theorem pay8_apply (v3 v4 v5 v6 : Vec Ideal S256x1 .f32) (v7 v9 v11 v13 : Vec Ideal S1x2944 .f32)
    (r : Fin 256) (k : Fin 2944) :
    k0_pay8 (F := Ideal) v3 v4 v5 v6 v7 v9 v11 v13 (ix2 r k)
      = max (min (v5 (ix2 r (0 : Fin 1))) (v11 (ix2 (0 : Fin 1) k)) - max (v3 (ix2 r (0 : Fin 1))) (v7 (ix2 (0 : Fin 1) k))) 0
        * max (min (v6 (ix2 r (0 : Fin 1))) (v13 (ix2 (0 : Fin 1) k)) - max (v4 (ix2 r (0 : Fin 1))) (v9 (ix2 (0 : Fin 1) k))) 0 := by
  unfold k0_pay8
  simp only [pay4_eq, pay5_eq, pay6_eq, pay7_eq, mulf_apply, maximumf_apply, minimumf_apply, subf_apply, broadcast_apply,
    bc_col, bc_row]
  show _ * _ = _
  rw [show Scalar.ofBits (F := Ideal) .f32 0x00000000#32 = (0 : EReal) from ofBits_zero]

/-- The area of object `r`'s box. -/
theorem pay9_apply (v3 v4 v5 v6 : Vec Ideal S256x1 .f32) (r : Fin 256) :
    k0_pay9 (F := Ideal) v3 v4 v5 v6 (ix2 r (0 : Fin 1))
      = (v5 (ix2 r (0 : Fin 1)) - v3 (ix2 r (0 : Fin 1))) * (v6 (ix2 r (0 : Fin 1)) - v4 (ix2 r (0 : Fin 1))) := by
  unfold k0_pay9
  simp only [mulf_apply, subf_apply]

/-- A comparison of words at an entry compares the entries. -/
theorem cmpi_at {s : Shape} {w : Nat} (p : CmpIPredicate) (x y : IVec s w) (i : s.Idx) :
    cmpi p x y i = IntOp.cmpi p (x i) (y i) := rfl

/-- A select on the strict comparison of two extended reals is the `if` on it. -/
theorem select_cmpf_ogt {α : Type} (x y : EReal) (A B : α) :
    Scalar.select (FloatOps.cmpf (F := Ideal) (φ := .f32) .ogt x y) A B = if y < x then A else B := by
  rw [cmpf_ogt_eq]
  by_cases h : y < x
  · rw [if_pos h, if_pos h]; exact select_one A B
  · rw [if_neg h, if_neg h]; exact select_zero A B

/-- The strict comparison's bit, widened and read as a number, is `1` or `0`. -/
theorem sitofp_cmpf_ogt (x y : EReal) :
    FloatOps.sitofp (F := Ideal) .f32 ((FloatOps.cmpf (F := Ideal) (φ := .f32) .ogt x y).setWidth 32)
      = if y < x then (1 : EReal) else 0 := by
  rw [cmpf_ogt_eq, sitofp_bit]
  by_cases h : y < x
  · rw [if_pos h, if_pos h, if_pos rfl]
  · rw [if_neg h, if_neg h, if_neg (by decide)]

/-! ## The row maximum -/

/-- The entry of the 256 × 2944 array over row `r` whose column is `k`. -/
theorem lift_row (r : Fin 256) (k : Fin 2944) : reduces_S256x2944_S256.lift (ix1 r) k = ix2 r k := by
  funext c; apply Fin.ext
  match c with
  | ⟨0, _⟩ => rfl
  | ⟨1, _⟩ => rfl

/-- The maximum along a row, started at `-∞`, is the fold of `max` from `-∞` over the row's 2944 entries. -/
theorem rowmax_apply (src : FVec Ideal S256x2944 .f32) (hφ : FKind.Formats .f32)
    (hacc : (0xFF800000#32 : BitVec 32) = 0xFF800000#32) (r : Fin 256) :
    multiReduction (F := Ideal) .maximumf [1] S256 src 0xFF800000#32 reduces_S256x2944_S256 hφ hacc (ix1 r)
      = Finset.univ.fold max ⊥ (fun k : Fin 2944 => src (ix2 r k)) := by
  refine (Ideal.multiReduction_maximumf_single src 0xFF800000#32 reduces_S256x2944_S256 hφ hacc (ix1 r)).trans ?_
  show Finset.univ.fold max (Ideal.ofBits .f32 0xFF800000#32)
    (fun k : Fin 2944 => src (reduces_S256x2944_S256.lift (ix1 r) k)) = _
  rw [ofBits_ninf]
  refine congrArg (Finset.univ.fold max ⊥) (funext fun k => ?_)
  rw [lift_row]

/-! ## Two columns side by side -/

/-- The left column of two columns laid side by side. -/
theorem cat_col0 {α : Type} (a b : S256x1.Idx → α) (h : Shape.Concatenates [S256x1, S256x1] S256x2 1) (r : Fin 256) :
    concatenate S256x2 1 [⟨S256x1, a⟩, ⟨S256x1, b⟩] h (ix2 r (0 : Fin 2)) = a (ix2 r (0 : Fin 1)) := by
  refine concatenate_apply_piece (t := S256x2) 1 [⟨S256x1, a⟩, ⟨S256x1, b⟩] h (ix2 r (0 : Fin 2)) 0 (Nat.zero_lt_succ 1) S256x1 a rfl rfl
    0 rfl (ix2 r (0 : Fin 1)) ?_ ?_
  · intro c hc
    match c with
    | ⟨0, _⟩ => rfl
    | ⟨1, _⟩ => exact absurd rfl hc
  · rfl

/-- The right column of two columns laid side by side. -/
theorem cat_col1 {α : Type} (a b : S256x1.Idx → α) (h : Shape.Concatenates [S256x1, S256x1] S256x2 1) (r : Fin 256) :
    concatenate S256x2 1 [⟨S256x1, a⟩, ⟨S256x1, b⟩] h (ix2 r (1 : Fin 2)) = b (ix2 r (0 : Fin 1)) := by
  refine concatenate_apply_piece (t := S256x2) 1 [⟨S256x1, a⟩, ⟨S256x1, b⟩] h (ix2 r (1 : Fin 2)) 1 (Nat.lt_succ_self 1) S256x1 b rfl rfl
    1 rfl (ix2 r (0 : Fin 1)) ?_ ?_
  · intro c hc
    match c with
    | ⟨0, _⟩ => rfl
    | ⟨1, _⟩ => exact absurd rfl hc
  · rfl

/-! ## The three stored values -/

/-- The running maxima start at `-∞`. -/
theorem reset_apply (r : Fin 256) : (reset (F := Ideal)) (ix2 r (0 : Fin 1)) = ⊥ := by
  show k0_pay3 (F := Ideal) (ix2 r (0 : Fin 1)) = ⊥
  unfold k0_pay3
  simp only [shapeCast_self, broadcast_apply, neg_big]

/-- The new running maximum of object `r`, over the values the body has formed: the old one against the largest, over
    the tile's detections of the object's label, of the quotient of the intersection by the union. -/
theorem pay1_apply (v8 v10 v12 v14 : FVec Ideal S1x2944 .f32) (v33 : FVec Ideal S256x2944 .f32)
    (v36 : FVec Ideal S256x1 .f32) (v45 : Vec Ideal S256x1 .i32) (v47 : Vec Ideal S1x2944 .i32)
    (v56 : Vec Ideal S256x1 .f32) (r : Fin 256) :
    k0_pay1 (F := Ideal) v8 v10 v12 v14 v33 v36 v45 v47 v56 (ix2 r (0 : Fin 1))
      = max (v56 (ix2 r (0 : Fin 1))) (Finset.univ.fold max ⊥ (fun k : Fin 2944 =>
          if v45 (ix2 r (0 : Fin 1)) = v47 (ix2 (0 : Fin 1) k) then
            Ideal.div (v33 (ix2 r k))
              (v36 (ix2 r (0 : Fin 1))
                + (v12 (ix2 (0 : Fin 1) k) - v8 (ix2 (0 : Fin 1) k)) * (v14 (ix2 (0 : Fin 1) k) - v10 (ix2 (0 : Fin 1) k))
                - v33 (ix2 r k))
          else ⊥)) := by
  unfold k0_pay1
  simp only [shapeCast_self, maximumf_apply]
  rw [shapeCast_a_a1_apply, rowmax_apply]
  refine congrArg (max _) (congrArg (Finset.univ.fold max ⊥) (funext fun k => ?_))
  simp only [select_apply, cmpi_at, divf_apply, subf_apply, addf_apply, mulf_apply, bc_col, bc_row, broadcast_apply, neg_big,
    select_cmpi_eq]

/-- The new running maximum of object `r`: the old one against the largest overlap, over the tile's detections of the
    object's label. -/
theorem step_apply (x0 : Vec Ideal S256x4 .f32) (x1 : Vec Ideal S256x1 .i32) (x2 : Vec Ideal S4x2944 .f32)
    (x3 : Vec Ideal S1x2944 .i32) (xs : Vec Ideal S256x1 .f32) (r : Fin 256) :
    step (F := Ideal) x0 x1 x2 x3 xs (ix2 r (0 : Fin 1))
      = max (xs (ix2 r (0 : Fin 1))) (Finset.univ.fold max ⊥ (fun k : Fin 2944 =>
          if x1 (ix2 r (0 : Fin 1)) = x3 (ix2 (0 : Fin 1) k) then
            Cert.Iou.iou (fun c : Fin 4 => x0 (ix2 r c)) (fun c : Fin 4 => x2 (ix2 c k)) else ⊥)) := by
  have c0 : ∀ r : Fin 256, View.ld x0 (Rect.unit ![0, 0] ![256, 1] inb_S256x4_S256x1_0_0) (ix2 r (0 : Fin 1)) = x0 (ix2 r (0 : Fin 4)) :=
    fun r => ld_col x0 0 _ r
  have c1 : ∀ r : Fin 256, View.ld x0 (Rect.unit ![0, 1] ![256, 1] inb_S256x4_S256x1_0_1) (ix2 r (0 : Fin 1)) = x0 (ix2 r (1 : Fin 4)) :=
    fun r => ld_col x0 1 _ r
  have c2 : ∀ r : Fin 256, View.ld x0 (Rect.unit ![0, 2] ![256, 1] inb_S256x4_S256x1_0_2) (ix2 r (0 : Fin 1)) = x0 (ix2 r (2 : Fin 4)) :=
    fun r => ld_col x0 2 _ r
  have c3 : ∀ r : Fin 256, View.ld x0 (Rect.unit ![0, 3] ![256, 1] inb_S256x4_S256x1_0_3) (ix2 r (0 : Fin 1)) = x0 (ix2 r (3 : Fin 4)) :=
    fun r => ld_col x0 3 _ r
  have d0 : ∀ k : Fin 2944, View.ld x2 (Rect.unit ![0, 0] ![1, 2944] inb_S4x2944_S1x2944_0_0) (ix2 (0 : Fin 1) k) = x2 (ix2 (0 : Fin 4) k) :=
    fun k => ld_row x2 0 _ k
  have d1 : ∀ k : Fin 2944, View.ld x2 (Rect.unit ![1, 0] ![1, 2944] inb_S4x2944_S1x2944_1_0) (ix2 (0 : Fin 1) k) = x2 (ix2 (1 : Fin 4) k) :=
    fun k => ld_row x2 1 _ k
  have d2 : ∀ k : Fin 2944, View.ld x2 (Rect.unit ![2, 0] ![1, 2944] inb_S4x2944_S1x2944_2_0) (ix2 (0 : Fin 1) k) = x2 (ix2 (2 : Fin 4) k) :=
    fun k => ld_row x2 2 _ k
  have d3 : ∀ k : Fin 2944, View.ld x2 (Rect.unit ![3, 0] ![1, 2944] inb_S4x2944_S1x2944_3_0) (ix2 (0 : Fin 1) k) = x2 (ix2 (3 : Fin 4) k) :=
    fun k => ld_row x2 3 _ k
  unfold step
  rw [pay1_apply]
  refine congrArg (max _) (congrArg (Finset.univ.fold max ⊥) (funext fun k => ?_))
  simp only [pay4_eq, pay5_eq, pay6_eq, pay7_eq, pay8_apply, pay9_apply, c0, c1, c2, c3, d0, d1, d2, d3]
  rfl

/-- The contribution of object `r`: one less its best overlap when it has a detection of its label, else nothing. -/
theorem finish_apply0 (s : Vec Ideal S256x1 .f32) (r : Fin 256) :
    finish (F := Ideal) s (ix2 r (0 : Fin 2))
      = if ⊥ < s (ix2 r (0 : Fin 1)) then 1 - s (ix2 r (0 : Fin 1)) else 0 := by
  show k0_pay2 (F := Ideal) s s (ix2 r (0 : Fin 2)) = _
  unfold k0_pay2
  rw [cat_col0]
  simp only [select_apply, cmpf_apply, subf_apply, broadcast_apply, neg_big_2, select_cmpf_ogt]
  rw [show Scalar.ofBits (F := Ideal) .f32 0x3F800000#32 = (1 : EReal) from ofBits_one,
    show Scalar.ofBits (F := Ideal) .f32 0x00000000#32 = (0 : EReal) from ofBits_zero]

/-- The flag of object `r`: one when it has a detection of its label, else nothing. -/
theorem finish_apply1 (s : Vec Ideal S256x1 .f32) (r : Fin 256) :
    finish (F := Ideal) s (ix2 r (1 : Fin 2)) = if ⊥ < s (ix2 r (0 : Fin 1)) then 1 else 0 := by
  show k0_pay2 (F := Ideal) s s (ix2 r (1 : Fin 2)) = _
  unfold k0_pay2
  rw [cat_col1]
  simp only [sitofp_apply, extui_apply, cmpf_apply, broadcast_apply, neg_big_2, sitofp_cmpf_ogt]

end Cert.KernelIdeal.KValue

end
-- ==== Proof.KernelAt.lean ====
/-
  The kernel's value, in the certificate's mathematics.

  The four argument arrays are named as functions of an object or a detection; the host lines after
  the region are the quotient of the two column sums; the array the region leaves has, in row `o`,
  the two numbers of the tiled arrangement for object `o` — the running maximum over the three
  tiles of 2944 columns, started at `-∞`, turned into the contribution and the flag —, the 100
  filler columns being zero boxes with label `-1`; so the program's result is the tiled loss.
-/
import proofs.«118736_j31619549233713_2_alg».proof.Proof.Tail
import proofs.«118736_j31619549233713_2_alg».proof.Proof.HostHead
import proofs.«118736_j31619549233713_2_alg».proof.Proof.PayloadAt
import proofs.«118736_j31619549233713_2_alg».proof.Proof.Spec
import Idealize.ShloMosaic.PureOps.Ideal.Laws
import Idealize.ShloMosaic.Lib.ValueIdx
import Idealize.ShloMosaic.Lib.Pipeline.Value

set_option maxRecDepth 16384

noncomputable section

open Idealize.ShloMosaic Idealize.ShloMosaic.TcCoe Idealize.SL.Sem
open scoped BigOperators

namespace Cert.KernelIdeal.KValue

open Cert.KernelIdeal Cert.KernelIdeal.Gen Idealize.ShloMosaic.ValueIdx

variable (m : (ℓ : Loc nD τ sig) → Buf (Elt Ideal) ℓ)

/-! ## The arguments -/

/-- Coordinate `k` of object box `o`. -/
abbrev Bx (c : Dev nD) : Fin 2048 → Fin 4 → EReal :=
  fun o k => (m ((c : Thread nD τ).loc main_arg3) : S2048x4.Idx → EReal) (ix2 o k)
/-- Coordinate `k` of detection box `d`. -/
abbrev Dt (c : Dev nD) : Fin 8732 → Fin 4 → EReal :=
  fun d k => (m ((c : Thread nD τ).loc main_arg0) : S8732x4.Idx → EReal) (ix2 d k)
/-- The label of object `o`. -/
abbrev Lb (c : Dev nD) : Fin 2048 → BitVec 32 :=
  fun o => (m ((c : Thread nD τ).loc main_arg4) : S2048.Idx → BitVec 32) (ix1 o)
/-- The label of detection `d`. -/
abbrev DLb (c : Dev nD) : Fin 8732 → BitVec 32 :=
  fun d => (m ((c : Thread nD τ).loc main_arg2) : S8732.Idx → BitVec 32) (ix1 d)

/-! ## The lines after the region -/

/-- A vector's index set is its coordinate range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {n : Nat} (f : (⟨1, ![n]⟩ : Shape).Idx → EReal) : ∑ i, f i = ∑ a : Fin n, f (ix1 a) := by
  rw [← Equiv.sum_comp (idxEquiv1 (n := n)).symm f]
  rfl

/-- Column `cc` of the 2048 × 2 array, cut out, flattened and summed from `0`, is the sum of its 2048 entries. -/
theorem col_sum (out : S2048x2.Idx → EReal) (off : Nat) (hs : S2048x2.Slices ![0, off] S2048x1) (cc : Fin 2)
    (hcc : cc.val = off) :
    Host.reduceAdd (F := Ideal) (φ := .f32)
        (shapeCast S2048 (extractStridedSlice S2048x1 ![0, off] out hs) shapeCasts_S2048x1_S2048)
        (constant S_ .f32 0x00000000#32) reducesTo_S2048_S_d0 h_S_ ix0
      = ∑ o : Fin 2048, out (ix2 o cc) := by
  simp only [Host.reduceAdd, Ideal.hostReduceAdd_def]
  rw [Ideal.hostReduceAdd_total reducesTo_S2048_S_d0 (fun b => b.elim0) _ _ ix0, sum_idx1]
  show Ideal.ofBits .f32 0x00000000#32 + _ = _
  rw [Ideal.ofBits_zero_f32, zero_add]
  refine Finset.sum_congr rfl fun o _ => ?_
  refine (shapeCast_apply _ shapeCasts_S2048x1_S2048 (ix1 o) (ix2 o (0 : Fin 1)) ?_).trans ?_
  · rw [Shape.rowMajor_val_two, Shape.rowMajor_val_one]
    show o.val * 1 + 0 = o.val
    omega
  · exact extractStridedSlice_apply _ out hs (ix2 o (0 : Fin 1)) (ix2 o cc) (fun a => match a with
      | ⟨0, _⟩ => by show o.val = 0 + o.val; omega
      | ⟨1, _⟩ => by show cc.val = off + 0; omega)

/-- The lines after the region: the first column's sum over the second column's sum. -/
theorem tail_apply (out : S2048x2.Idx → EReal) :
    tail (F := Ideal) out ix0
      = Ideal.div (∑ o : Fin 2048, out (ix2 o (0 : Fin 2))) (∑ o : Fin 2048, out (ix2 o (1 : Fin 2))) := by
  unfold tail
  show FloatOps.hostDivf (F := Ideal) _ _ = _
  rw [Ideal.hostDivf_def, col_sum out 0 slices_S2048x2_S2048x1_0_0 (0 : Fin 2) rfl,
    col_sum out 1 slices_S2048x2_S2048x1_0_1 (1 : Fin 2) rfl]

/-! ## One tile -/

/-- The running maximum of object `o` after tile `j` of its row: the one before against the tile's largest masked
    overlap. The blocks' entries are the arguments' (the object blocks rows of the boxes and of the labels, the
    detection blocks columns of the padded, transposed boxes and of the padded labels), and the padded columns are the
    detections followed by zero boxes with label `-1`. -/
theorem stepAt_apply (c : Dev nD) (t : Fin cfg0.N) (xs : Vec Ideal S256x1 .f32) (r : Fin 256) (o : Fin 2048) (j : Fin 3)
    (ho : o.val = t.val / 3 * 256 + r.val) (hj : t.val % 3 = j.val) :
    stepAt (F := Ideal) m c t xs (ix2 r (0 : Fin 1))
      = max (xs (ix2 r (0 : Fin 1))) (Cert.Iou.tileMax (Bx m c) (Dt m c) (Lb m c) (DLb m c) o j) := by
  unfold stepAt
  refine (step_apply (iblk m c 0 t) (iblk m c 1 t) (iblk m c 2 t) (iblk m c 3 t) xs r).trans ?_
  congr 1
  unfold Cert.Iou.tileMax
  congr 1
  funext k
  have hd : (Cert.Iou.col j k).val = t.val % 3 * 2944 + k.val := by
    show j.val * 2944 + k.val = _
    rw [hj]
  have eL : (iblk m c 1 t : Vec Ideal S256x1 .i32) (ix2 r (0 : Fin 1)) = Lb m c o :=
    (labels_blk m c t r o ho).trans (V_labels m c o)
  have eDL : (iblk m c 3 t : Vec Ideal S1x2944 .i32) (ix2 (0 : Fin 1) k) = Cert.Iou.padL (DLb m c) (Cert.Iou.col j k) :=
    (dlabels_blk m c t k (Cert.Iou.col j k) hd).trans (V_dlabels m c (Cert.Iou.col j k))
  have eB : (fun q : Fin 4 => (iblk m c 0 t : Vec Ideal S256x4 .f32) (ix2 r q)) = Bx m c o := by
    funext q
    exact (boxes_blk m c t r q o ho).trans (congrFun (V_main_arg3 m c) (ix2 o q))
  have eD : (fun q : Fin 4 => (iblk m c 2 t : Vec Ideal S4x2944 .f32) (ix2 q k))
      = Cert.Iou.padD (Dt m c) (Cert.Iou.col j k) := by
    funext q
    refine ((dets_blk m c t q k (Cert.Iou.col j k) hd).trans (V_dets m c q (Cert.Iou.col j k))).trans ?_
    unfold Cert.Iou.padD
    by_cases h : (Cert.Iou.col j k).val < 8732
    · rw [dif_pos h, dif_pos h]
    · rw [dif_neg h, dif_neg h]
  rw [eL, eDL, eB, eD]
  rfl

/-! ## One row of the result -/

/-- Row `o` of the array the region leaves: the contribution and the flag of object `o` in the tiled arrangement. -/
theorem outArray_apply (c : Dev nD) (o : Fin 2048) (cc : Fin 2) :
    outArray (F := Ideal) m c (ix2 o cc) = Cert.Iou.outK (Bx m c) (Dt m c) (Lb m c) (DLb m c) o cc := by
  have ho : o.val < 2048 := o.isLt
  have hq : o.val / 256 < 8 := by omega
  have v2 : (lastTile ⟨o.val / 256, hq⟩).val = 3 * (o.val / 256) + 2 := rfl
  have v1 : (prev (lastTile ⟨o.val / 256, hq⟩)).val = 3 * (o.val / 256) + 2 - 1 := rfl
  have v0 : (prev (prev (lastTile ⟨o.val / 256, hq⟩))).val = 3 * (o.val / 256) + 2 - 1 - 1 := rfl
  have hrun : (stepAt (F := Ideal) m c (lastTile ⟨o.val / 256, hq⟩) (stepAt (F := Ideal) m c (prev (lastTile ⟨o.val / 256, hq⟩))
        (stepAt (F := Ideal) m c (prev (prev (lastTile ⟨o.val / 256, hq⟩))) (reset (F := Ideal)))))
          (ix2 (⟨o.val % 256, Nat.mod_lt _ (by decide)⟩ : Fin 256) (0 : Fin 1))
      = Cert.Iou.run (Bx m c) (Dt m c) (Lb m c) (DLb m c) o 2 := by
    rw [stepAt_apply m c (lastTile ⟨o.val / 256, hq⟩) _ ⟨o.val % 256, Nat.mod_lt _ (by decide)⟩ o 2
        (by rw [v2]; show o.val = (3 * (o.val / 256) + 2) / 3 * 256 + o.val % 256; omega)
        (by rw [v2]; show (3 * (o.val / 256) + 2) % 3 = 2; omega),
      stepAt_apply m c (prev (lastTile ⟨o.val / 256, hq⟩)) _ ⟨o.val % 256, Nat.mod_lt _ (by decide)⟩ o 1
        (by rw [v1]; show o.val = (3 * (o.val / 256) + 2 - 1) / 3 * 256 + o.val % 256; omega)
        (by rw [v1]; show (3 * (o.val / 256) + 2 - 1) % 3 = 1; omega),
      stepAt_apply m c (prev (prev (lastTile ⟨o.val / 256, hq⟩))) _ ⟨o.val % 256, Nat.mod_lt _ (by decide)⟩ o 0
        (by rw [v0]; show o.val = (3 * (o.val / 256) + 2 - 1 - 1) / 3 * 256 + o.val % 256; omega)
        (by rw [v0]; show (3 * (o.val / 256) + 2 - 1 - 1) % 3 = 0; omega),
      reset_apply]
    simp only [Cert.Iou.run]
  show rowBlock (F := Ideal) m c (lastTile ⟨o.val / 256, hq⟩) (ix2 (⟨o.val % 256, Nat.mod_lt _ (by decide)⟩ : Fin 256) cc) = _
  unfold rowBlock Cert.Iou.outK
  match cc with
  | ⟨0, _⟩ =>
    refine (finish_apply0 _ ⟨o.val % 256, Nat.mod_lt _ (by decide)⟩).trans ?_
    rw [hrun, if_pos rfl]
  | ⟨1, _⟩ =>
    refine (finish_apply1 _ ⟨o.val % 256, Nat.mod_lt _ (by decide)⟩).trans ?_
    rw [hrun]
    exact (if_neg Nat.one_ne_zero).symm

/-! ## The program's value -/

/-- The result the program ends with: the loss in the tiled arrangement, of its four arguments. -/
theorem kernel_value (c : Dev nD) :
    tail (F := Ideal) (outArray (F := Ideal) m c)
      = fun _ => Cert.Iou.resultTiled (Bx m c) (Dt m c) (Lb m c) (DLb m c) := by
  funext i
  rw [eq_ix0 i, tail_apply]
  have e0 : ∑ o : Fin 2048, outArray (F := Ideal) m c (ix2 o (0 : Fin 2))
      = ∑ o : Fin 2048, Cert.Iou.outK (Bx m c) (Dt m c) (Lb m c) (DLb m c) o 0 :=
    Finset.sum_congr rfl fun o _ => outArray_apply m c o 0
  have e1 : ∑ o : Fin 2048, outArray (F := Ideal) m c (ix2 o (1 : Fin 2))
      = ∑ o : Fin 2048, Cert.Iou.outK (Bx m c) (Dt m c) (Lb m c) (DLb m c) o 1 :=
    Finset.sum_congr rfl fun o _ => outArray_apply m c o 1
  rw [e0, e1]
  rfl

end Cert.KernelIdeal.KValue

end
-- ==== Proof.lean ====
/-
  The certificate's claim, assembled.

  Both programs compute a detection-matching loss: for every object box the largest
  intersection-over-union among the detections carrying its label; the objects that have such a
  detection contribute one minus that maximum, and the loss is the contributions' sum divided by
  their number.  The reference does it in one sweep over the 8732 detections.  The kernel pads the
  detections to 8832 columns (zero boxes with the label -1), walks an 8 × 3 grid of 256 objects by
  2944 columns with a running maximum started at -∞, decides "has a detection of its label" by the
  running maximum being above -∞, writes a 2048 × 2 array of contributions and flags, and the host
  sums the two columns and divides.

  Over the extended reals the two agree when every box coordinate is a real number, no object
  carries the filler label, and no pair of equal labels has a zero union (then every overlap of a
  matching pair is a real number, so the running maximum is above -∞ exactly for the objects that
  have a detection of their label): `Cert.Iou.resultTiled_eq` under `Cert.Iou.Domain`, which the
  precondition gives (`Cert.Iou.domain_of_pre`).  The kernel's run ends at the tiled arrangement
  (`Cert.KernelIdeal.KValue.run`, `kernel_value`), the reference's at the one-sweep arrangement
  (`Cert.ReferenceIdeal.RefRun.run`, `Cert.Iou.ref_value`).
-/
import proofs.«118736_j31619549233713_2_alg».proof.Defs
import proofs.«118736_j31619549233713_2_alg».proof.Proof.Gen.Kernel
import proofs.«118736_j31619549233713_2_alg».proof.Proof.Gen.Kernel.Skeleton
import proofs.«118736_j31619549233713_2_alg».proof.Proof.Gen.Kernel.Launch
import proofs.«118736_j31619549233713_2_alg».proof.Proof.Gen.Kernel.Points
import proofs.«118736_j31619549233713_2_alg».proof.Proof.Gen.Kernel.Frame
import proofs.«118736_j31619549233713_2_alg».proof.Proof.Gen.KernelIdeal
import proofs.«118736_j31619549233713_2_alg».proof.Proof.Gen.KernelIdeal.Skeleton
import proofs.«118736_j31619549233713_2_alg».proof.Proof.Gen.KernelIdeal.Launch
import proofs.«118736_j31619549233713_2_alg».proof.Proof.Gen.KernelIdeal.Points
import proofs.«118736_j31619549233713_2_alg».proof.Proof.Gen.KernelIdeal.Frame
import proofs.«118736_j31619549233713_2_alg».proof.Proof.Gen.ReferenceIdeal
import proofs.«118736_j31619549233713_2_alg».proof.Proof.Gen.Pre_finite_inputs
import proofs.«118736_j31619549233713_2_alg».proof.Proof.RefRun
import proofs.«118736_j31619549233713_2_alg».proof.Proof.RefReadP
import proofs.«118736_j31619549233713_2_alg».proof.Proof.RefValue
import proofs.«118736_j31619549233713_2_alg».proof.Proof.Arrange
import proofs.«118736_j31619549233713_2_alg».proof.Proof.PreDomain
import proofs.«118736_j31619549233713_2_alg».proof.Proof.KernelAt
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The three named constants: the table gives both names the value -∞. -/
theorem preserves : Cert.preserves_Kernel_KernelIdeal :=
  ⟨IdealRules.named_const.statement Cert.KernelIdeal.κ "neg_big" .f32 0xF149F2CA#32 ⊥ rfl,
    IdealRules.named_const.statement Cert.KernelIdeal.κ "neg_big" .f32 0xF149F2CA#32 ⊥ rfl,
    IdealRules.named_const.statement Cert.KernelIdeal.κ "neg_big_2" .f32 0xEFA18F08#32 ⊥ rfl⟩

/-- The two runs end at the two arrangements of one loss, which agree on the precondition's domain. -/
theorem algebraic : Cert.algebraic_KernelIdeal_ReferenceIdeal := by
  intro m ρ m' ρ' hpre hagree
  refine ⟨fun c => Cert.KernelIdeal.KValue.tail (Cert.KernelIdeal.KValue.outArray (F := Ideal) m c),
    Cert.KernelIdeal.KValue.run (F := Ideal) m ρ, ?_⟩
  refine (θ_run Cert.ReferenceIdeal.defs _ _).mono (fun _ h c => ⟨(h c).1.trans ?_, (h c).2⟩)
    (Cert.ReferenceIdeal.RefRun.run (F := Ideal) m' ρ')
  have hd := Cert.Iou.domain_of_pre _ _ _ _ _ (hpre c)
  refine (Cert.ReferenceIdeal.ReadP.val_main_v65_eq m' c).trans ?_
  rw [(hagree c).1, (hagree c).2.2.1, (hagree c).2.2.2.1, (hagree c).2.2.2.2]
  refine (Cert.Iou.ref_value _ _ _ _).trans ?_
  refine Eq.trans ?_ (Cert.KernelIdeal.KValue.kernel_value m c).symm
  exact congrArg (fun x : EReal => fun _ => x) (Cert.Iou.resultTiled_eq hd).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
